-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x128 : Shape := ⟨3, ![1, 8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S1x8192x128 : S_.BroadcastsInDim S1x8192x128 (![] : Fin 0 → Fin S1x8192x128.rank)
  reducesTo_S1x8192x128_S_d0_1_2 : S1x8192x128.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x8192x128 .f32) (main_arg1 : FVec F S8192x8192 .f32) (main_arg2 : FVec F S8192x8192 .f32) (main_arg3 : FVec F S128x128 .f32) (main_arg4 : FVec F S128x128 .f32) (main_arg5 : FVec F S128x128 .f32) (main_arg6 : FVec F S128 .f32) : IVec S_ 1 :=
  let main_v0 : FVec F S1x8192x128 .f32 := Host.absf main_arg0
  let main_cst : FVec F S_ .f32 := constant S_ .f32 0x7F800000#32
  let main_v1 : FVec F S1x8192x128 .f32 := broadcastInDim S1x8192x128 ![] bcast_S_S1x8192x128 main_cst
  let main_v2 : IVec S1x8192x128 1 := cmpf .olt main_v0 main_v1
  let main_c : IVec S_ 1 := constantI S_ 1 1#1
  let main_v3 : IVec S_ 1 := (fun x v => Host.reduce IntOp.andi x v reducesTo_S1x8192x128_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1x8192x128 : Shape := ⟨3, ![1, 8192, 128]⟩
abbrev S8192x8192 : Shape := ⟨2, ![8192, 8192]⟩
abbrev S128x128 : Shape := ⟨2, ![128, 128]⟩
abbrev S128 : Shape := ⟨1, ![128]⟩
abbrev S8192x128 : Shape := ⟨2, ![8192, 128]⟩
abbrev S1x128 : Shape := ⟨2, ![1, 128]⟩
abbrev S256x128 : Shape := ⟨2, ![256, 128]⟩
abbrev S256x4096 : Shape := ⟨2, ![256, 4096]⟩
abbrev S1x4096x128 : Shape := ⟨3, ![1, 4096, 128]⟩
abbrev S4096x128 : Shape := ⟨2, ![4096, 128]⟩

abbrev nBuf : Space → Nat
  | .hbm => 11
  | .vmem => 21
  | .smem => 0
  | _ => 0

abbrev bufTy : (tb : Table) → Fin (tcTables nBuf tb) → BufTy
  | .hbm, ⟨0, _⟩ => ⟨S1x8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S1x8192x128, .f32⟩
  | .local _ .vmem, ⟨0, _⟩ => ⟨S8192x128, .f32⟩
  | .local _ .vmem, ⟨1, _⟩ => ⟨S8192x128, .f32⟩
  | .local _ .vmem, ⟨2, _⟩ => ⟨S256x128, .f32⟩
  | .local _ .vmem, ⟨3, _⟩ => ⟨S256x128, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S1x8192x128, .f32⟩
  | .local _ .vmem, ⟨19, _⟩ => ⟨S1x8192x128, .f32⟩
  | .local _ .vmem, ⟨20, _⟩ => ⟨S256x128, .f32⟩
  | _, _ => ⟨S1x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v41 : Index := Scalar.indexCast arg1
  let c0_31 : Index := 0#32
  let c0_32 : Index := 0#32
  ![v41.toNat, 0, 0]
def k0_off2 (i : grid0.Coords) : Fin 3 → Nat :=
  let arg1 : BitVec 32 := BitVec.ofNat 32 (i 1).val
  let v8 : Index := Scalar.indexCast arg1
  let c0_6 : Index := 0#32
  let c0_7 : Index := 0#32
  ![v8.toNat, 0, 0]
def k0_off3 (i : grid0.Coords) : Fin 3 → Nat :=
  let arg1 : BitVec 32 := BitVec.ofNat 32 (i 1).val
  let v13 : Index := Scalar.indexCast arg1
  let c4096 : Index := 4096#32
  let c0_10 : Index := 0#32
  ![v13.toNat, 4096, 0]
def k0_cond3 (i : grid0.Coords) : BitVec 1 :=
  let arg1 : BitVec 32 := BitVec.ofNat 32 (i 1).val
  let c0_i32_24 : BitVec 32 := 0#32
  let v34 : BitVec 1 := Scalar.cmpi .eq arg1 c0_i32_24
  let v35 : BitVec 32 := Scalar.extui v34
  let c0_i32_25 : BitVec 32 := 0#32
  let v36 : BitVec 1 := Scalar.cmpi .ne v35 c0_i32_25
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S1x8192x128_S8192x128 : S1x8192x128.ShapeCasts S8192x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  h_S1x8192x128 : 0 < S1x8192x128.numel
  shapeCasts_S8192x128_S1x8192x128 : S8192x128.ShapeCasts S1x8192x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x4096_S256x4096_0_0 : ∀ a, (![0, 0] : Fin 2 → Nat) a + S256x4096.size a ≤ S256x4096.size a
  h_S256x4096 : 0 < S256x4096.numel
  h_S1x4096x128 : 0 < S1x4096x128.numel
  shapeCasts_S1x4096x128_S4096x128 : S1x4096x128.ShapeCasts S4096x128
  bcast_S8192x128_S1x8192x128_1_2 : S8192x128.BroadcastsInDim S1x8192x128 (![1, 2] : Fin 2 → Fin S1x8192x128.rank)
  dot_S8192x128_S128x128_S8192x128_1_0_0_1_n_n_wf : DotDims.WF S8192x128 S128x128 S8192x128 [1] [0] [0] [1] [] []
  dot_S256x128_S128x128_S256x128_1_0_0_1_n_n_wf : DotDims.WF S256x128 S128x128 S256x128 [1] [0] [0] [1] [] []
  dot_S256x4096_S4096x128_S256x128_1_0_0_1_n_n_wf : DotDims.WF S256x4096 S4096x128 S256x128 [1] [0] [0] [1] [] []
  hrank0 : 0 < grid0.rank
  k0_off1_inb : ∀ i : grid0.Coords, ∀ (k0_h1 : k0_cond1 i = 1#1), ∀ a, (k0_off1 i) a + S1x8192x128.size a ≤ S1x8192x128.size a
  k0_off2_inb : ∀ i : grid0.Coords, ∀ a, (k0_off2 i) a + S1x4096x128.size a ≤ S1x8192x128.size a
  k0_off3_inb : ∀ i : grid0.Coords, ∀ a, (k0_off3 i) a + S1x4096x128.size a ≤ S1x8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x8192.size a
  hwx0_2 : ∀ i : grid0.Coords, EltTy.bits .f32 = 32 ∨ (Rect.block (s := S8192x8192) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x8192.size a
  hwx0_3 : ∀ i : grid0.Coords, EltTy.bits .f32 = 32 ∨ (Rect.block (s := S8192x8192) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x8192.size a
  hwx0_4 : ∀ i : grid0.Coords, EltTy.bits .f32 = 32 ∨ (Rect.block (s := S8192x8192) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x8192.size a
  hwx0_5 : ∀ i : grid0.Coords, EltTy.bits .f32 = 32 ∨ (Rect.block (s := S8192x8192) S256x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S8192x128.size a
  hwx0_10 : ∀ i : grid0.Coords, EltTy.bits .f32 = 32 ∨ (Rect.block (s := S8192x128) S256x128.size (cc0_transform_10 i) (hinb0_10 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v0) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S256x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S1x8192x128 : Shape := ⟨3, ![1, 8192, 128]⟩
abbrev S8192x8192 : Shape := ⟨2, ![8192, 8192]⟩
abbrev S128x128 : Shape := ⟨2, ![128, 128]⟩
abbrev S128 : Shape := ⟨1, ![128]⟩
abbrev S8192x128 : Shape := ⟨2, ![8192, 128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S1x8192x128, .f32⟩
  | _, _ => ⟨S1x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  shapeCasts_S1x8192x128_S8192x128 : S1x8192x128.ShapeCasts S8192x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x128_S1x8192x128_1_2 : S8192x128.BroadcastsInDim S1x8192x128 (![1, 2] : Fin 2 → Fin S1x8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsBodyFirst.lean ====
/-
  The body of the graph-convolution kernel at the FIRST row panel, run once symbolically.

  At the first grid point the body forms the two products of the feature block with the two relation kernels and stores
  each whole into its own scratch array; it then sets the accumulator to the self term plus the bias, loads the two halves
  of each stored product back, adds the four half contractions into the accumulator, and stores the accumulator clamped
  below at zero into the output block. The run leaves, per buffer the body stores into, the list of its stores (last
  first): one store covering the output block, one covering each of the first two scratch arrays.
-/
import proofs.«111522_g38826504356516_cont_8to1_b_1379_24_alg».proof.Proof.Gen.Kernel.Launch
import proofs.«111522_g38826504356516_cont_8to1_b_1379_24_alg».proof.Proof.Gen.Kernel.Skeleton
import proofs.«111522_g38826504356516_cont_8to1_b_1379_24_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The second conditional's test, on the grid coordinates: the column-panel index is zero. -/
abbrev cond2 (i : grid0.Coords) : Prop :=
  (Scalar.cmpi .ne (Scalar.extui (Scalar.cmpi .eq (BitVec.ofNat 32 (i 1).val) 0#32)) 0#32) = 1#1

set_option maxHeartbeats 4000000 in
/-- The body at the first row panel (the first conditional taken): on whole memrefs, the ten input blocks at their
    contents, the output block and the three scratch arrays at anything, it runs to the continuation with the inputs as
    they were and the output block and each scratch array overwritten by the pieces its stores leave (last first; the run
    finds them): the two products X·W₀, X·W₁ into the first two scratch arrays, the accumulator into the third, the
    clamped accumulator into the output block. -/
noncomputable def runFirst (c : Dev nD) (i : grid0.Coords) (arg2 : Memref sig .tc .vmem S8192x128 .f32) (harg2 : arg2.IsWhole) (arg3 : Memref sig .tc .vmem S256x128 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x8192x128 .f32) (harg13 : arg13.IsWhole) (arg14 : Memref sig .tc .vmem S1x8192x128 .f32) (harg14 : arg14.IsWhole) (arg15 : Memref sig .tc .vmem S256x128 .f32) (harg15 : arg15.IsWhole)
    (hc1 : k0_cond1 i = 1#1) (hc2 : cond2 i) (hc3 : k0_cond3 i = 1#1) (x0 : Vec F S8192x128 .f32) (x1 : Vec F S256x128 .f32) (x2 x3 x4 x5 : Vec F S256x4096 .f32) (x6 x7 x8 : Vec F S128x128 .f32) (x9 : Vec F S1x128 .f32) :
    Σ' (L12 : List (View.Piece (Elt F) S256x128 .f32)) (L13 : List (View.Piece (Elt F) S1x8192x128 .f32)) (L14 : List (View.Piece (Elt F) S1x8192x128 .f32)), { L15 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H12]; · iexists _; iexact H12
    isplitl [H13]; · iexists _; iexact H13
    isplitl [H14]; · iexists _; iexact H14
    iexists _; iexact H15

end Cert.Kernel.Hand

end
-- ==== Proof.BitsBodyLater.lean ====
/-
  The body at a LATER row panel, run once symbolically.

  Past the first grid point the body skips the two products: it only reads the two scratch arrays, which must then hold
  what the first panel stored, and leaves them untouched. The accumulator and the output block are filled as at the
  first panel.
-/
import proofs.«111522_g38826504356516_cont_8to1_b_1379_24_alg».proof.Proof.BitsBodyFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a later row panel (the first conditional not taken): on whole memrefs, the ten input blocks at their
    contents, the first two scratch arrays at the contents `y0`, `y1` an earlier panel left, the output block and the
    third scratch array at anything, it runs to the continuation with the inputs and the first two scratch arrays as they
    were and the output block and the third scratch array overwritten by the pieces its stores leave. -/
noncomputable def runLater (c : Dev nD) (i : grid0.Coords) (arg2 : Memref sig .tc .vmem S8192x128 .f32) (harg2 : arg2.IsWhole) (arg3 : Memref sig .tc .vmem S256x128 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x8192x128 .f32) (harg13 : arg13.IsWhole) (arg14 : Memref sig .tc .vmem S1x8192x128 .f32) (harg14 : arg14.IsWhole) (arg15 : Memref sig .tc .vmem S256x128 .f32) (harg15 : arg15.IsWhole)
    (hc1 : ¬ k0_cond1 i = 1#1) (hc2 : cond2 i) (hc3 : k0_cond3 i = 1#1) (x0 : Vec F S8192x128 .f32) (x1 : Vec F S256x128 .f32) (x2 x3 x4 x5 : Vec F S256x4096 .f32) (x6 x7 x8 : Vec F S128x128 .f32) (x9 : Vec F S1x128 .f32)
    (y0 y1 : Vec F S1x8192x128 .f32) :
    Σ' (L12 : List (View.Piece (Elt F) S256x128 .f32)), { L15 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare y0 ∗ owns (c : Thread nD τ) arg14 fullShare y1 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L12)
                ∗ owns (c : Thread nD τ) arg13 fullShare y0 ∗ owns (c : Thread nD τ) arg14 fullShare y1
                ∗ (∃ f, arg15.view.loc (c : Thread nD τ) ↦[arg15.view.set]{fullShare} arg15.view.writes (Elt F) f L15)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%f13, %hf13, H13⟩, ⟨%f14, %hf14, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hf13; obtain rfl := harg14.eq_unread hf14
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H12]; · iexists _; iexact H12
    isplitl [H13]
    · iexists _; isplitr; · ipureintro; exact harg13.read_unread _
      iexact H13
    isplitl [H14]
    · iexists _; isplitr; · ipureintro; exact harg14.read_unread _
      iexact H14
    iexists _; iexact H15

end Cert.Kernel.Hand

end
-- ==== Proof.BitsData.lean ====
/-
  What the pipelined region holds at each of its 32 grid points.

  Every input window's staging buffer holds that window's block of its array at every point, fetched there or carried
  over (the feature block and the small operands are fetched once, their block index never moves). The output block is
  what the point's run stored. Between points the region keeps its three scratch arrays: before the first point at
  anything; afterwards the first two at the products the first panel stored — the same at every later point — and the
  accumulator at anything. An array read through two windows is held by each at one half share.
-/
import proofs.«111522_g38826504356516_cont_8to1_b_1379_24_alg».proof.Proof.BitsBodyLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them, and the windows' blocks -/

/-- Core `c`'s buffer contents when the region is entered: the launch memory after the two reshapes before it
    (the features as a matrix, the bias as one row). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions over the grid: 32 row panels, one column panel -/

/-- The first conditional is taken at the first row panel only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second and the third are taken at every point: there is one column panel. -/
theorem hcond2 : ∀ t : Fin cfg0.N, cond2 (grid0.coords t) :=
  (by decide +kernel : ∀ t : Fin grid0.N, cond2 (grid0.coords t))
theorem hcond3 : ∀ t : Fin cfg0.N, k0_cond3 (grid0.coords t) = 1#1 :=
  (by decide +kernel : ∀ t : Fin grid0.N, k0_cond3 (grid0.coords t) = 1#1)
/-- So the output window is stored at every point: never idle. -/
theorem live10 : ∀ t : Fin cfg0.N, cfg0.idle 10 (grid0.coords t) = false :=
  (by decide +kernel : ∀ t : Fin grid0.N, cfg0.idle 10 (grid0.coords t) = false)

/-! ## The memrefs the pipeline calls the body with -/

abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev sc0 : Memref sig .tc .vmem S1x8192x128 .f32 := Memref.whole cc0_scratch0
abbrev sc1 : Memref sig .tc .vmem S1x8192x128 .f32 := Memref.whole cc0_scratch1
abbrev sc2 : Memref sig .tc .vmem S256x128 .f32 := Memref.whole cc0_scratch2

/-- The first grid point. -/
abbrev t0 : Fin cfg0.N := ⟨0, by decide⟩

/-! ## What the body leaves -/

/-- The first panel's run at the first point's memrefs and blocks. -/
abbrev firstRun (c : Dev nD) :=
  runFirst (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) sc0 (Memref.isWhole_whole _) sc1 (Memref.isWhole_whole _) sc2 (Memref.isWhole_whole _) ((hcond1 t0).mpr rfl) (hcond2 t0) (hcond3 t0) (iblk m c 0 t0) (iblk m c 1 t0) (iblk m c 2 t0) (iblk m c 3 t0) (iblk m c 4 t0) (iblk m c 5 t0) (iblk m c 6 t0) (iblk m c 7 t0) (iblk m c 8 t0) (iblk m c 9 t0)

/-- What the first panel leaves in the first two scratch arrays (the products of the feature matrix with the two
    relation kernels), which every later panel reads and none overwrites. -/
def Y0 (c : Dev nD) : Vec F S1x8192x128 .f32 := View.canon (firstRun m c).2.1
def Y1 (c : Dev nD) : Vec F S1x8192x128 .f32 := View.canon (firstRun m c).2.2.1

/-- What the body leaves in the output block at point `t`. -/
def out10 (c : Dev nD) (t : Fin cfg0.N) : Vec F S256x128 .f32 :=
  if h : t.val = 0 then
    View.canon (runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) ((hcond1 t).mpr h) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t)).1
  else
    View.canon (runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (fun e => h ((hcond1 t).mp e)) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t) (Y0 m c) (Y1 m c)).1

/-- The region's invariant before position `n`: before the first point the scratch arrays at anything; afterwards the
    first two at the products the first panel left, the accumulator at anything. -/
def PhiS (c : Dev nD) : (n : ℕ) → sProp 𝕄
  | 0 => Pipeline.scopedRest (Ix := Unit) (Name := ℕ) (U := UR sig nD τ) (Lvl := ℕ) (Val := Elt F) spec0 c
  | _ + 1 => iprop(owns (c : Thread nD τ) sc0 fullShare (Y0 m c) ∗ owns (c : Thread nD τ) sc1 fullShare (Y1 m c) ∗ (∃ d, owns (c : Thread nD τ) sc2 fullShare d))

/-! ## The proof data -/

/-- The pipeline's proof data on core `c`: the arrays as the region finds them; after the body each input's buffer at
    its block, the output's at `out10`; the invariant `PhiS`; an array two windows read is held at one half share by
    each, the others whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after_10 (c : Dev nD) (t : Fin cfg0.N) : (dats m 0 c).after 10 t = out10 m c t := by dsimp only [dats]

/-! ## Every input's buffer holds its block at every point, fetched there or not -/

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

end Cert.Kernel.Hand

end
-- ==== Proof.BitsBody.lean ====
/-
  The body's obligation at every grid point.

  The single store into the output block, and at the first panel the single store into each product's scratch array, is
  through the whole-shape rectangle, so the stores cover those buffers and what they hold afterwards does not depend on
  what they held before. At the first panel the first run applies from scratch arrays at anything; at a later panel the
  second run applies from the products the region's invariant names, and hands them back.
-/
import proofs.«111522_g38826504356516_cont_8to1_b_1379_24_alg».proof.Proof.BitsData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover what they are said to fill -/

/-- At the first panel the one store into the output block fills it. -/
theorem cover12_first (c : Dev nD) (t : Fin cfg0.N) (h : t.val = 0) (y : S256x128.Idx) :
    ∃ pc ∈ (runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) ((hcond1 t).mpr h) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t)).1, y ∈ pc.1.set :=
  View.cover_of_tiledL _ S256x128.size (by sl_kernel_rfl) y

/-- At a later panel likewise. -/
theorem cover12_later (c : Dev nD) (t : Fin cfg0.N) (h : ¬ t.val = 0) (y : S256x128.Idx) :
    ∃ pc ∈ (runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (fun e => h ((hcond1 t).mp e)) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t) (Y0 m c) (Y1 m c)).1, y ∈ pc.1.set :=
  View.cover_of_tiledL _ S256x128.size (by sl_kernel_rfl) y

/-- The first panel's one store into each of the first two scratch arrays fills it. -/
theorem cover13 (c : Dev nD) (y : S1x8192x128.Idx) : ∃ pc ∈ (firstRun m c).2.1, y ∈ pc.1.set :=
  View.cover_of_tiledL _ S1x8192x128.size (by sl_kernel_rfl) y
theorem cover14 (c : Dev nD) (y : S1x8192x128.Idx) : ∃ pc ∈ (firstRun m c).2.2.1, y ∈ pc.1.set :=
  View.cover_of_tiledL _ S1x8192x128.size (by sl_kernel_rfl) y

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = PhiS m c t.val := by
  dsimp only [dats]; simp only [Fin.coe_castSucc]

/-- The scratch arrays at anything, as memrefs owned at some contents. -/
theorem PhiS_zero_eq (c : Dev nD) :
    (PhiS m c 0 : sProp 𝕄) = iprop((∃ d, owns (c : Thread nD τ) sc0 fullShare d) ∗ (∃ d, owns (c : Thread nD τ) sc1 fullShare d) ∗ (∃ d, owns (c : Thread nD τ) sc2 fullShare d)) := by
  unfold PhiS; rw [scopedRest0_eq]; simp only [sc0, sc1, sc2, owns_whole]; try rfl

set_option maxHeartbeats 4800000 in
/-- The body at any point. Every input's memref holds its block. At the first row panel the scratch arrays hold anything
    and the first panel's run applies: it leaves the two products in the first two scratch arrays, which the invariant
    then names. At a later panel the invariant hands the body those products, the later panel's run applies and hands
    them back untouched. Either way the output block is left at what the run's store put there, and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  rw [show (dats m 0 c).leavesExact 8 t = owns (c : Thread nD τ) (ms8 t) fullShare ((dats m 0 c).after 8 t) from rfl, after_8]
  rw [show (dats m 0 c).leavesExact 9 t = owns (c : Thread nD τ) (ms9 t) fullShare ((dats m 0 c).after 9 t) from rfl, after_9]
  rw [show (dats m 0 c).leavesExact 10 t = owns (c : Thread nD τ) (ms10 t) fullShare ((dats m 0 c).after 10 t) from by
    unfold Dat.leavesExact; rw [live10 t], after_10]
  by_cases hz : t.val = 0
  · unfold out10; rw [dif_pos hz]
    obtain rfl : t = t0 := Fin.ext hz
    rw [show PhiS m c (t0 : Fin cfg0.N).val = PhiS m c 0 from rfl, PhiS_zero_eq]
    unfold PhiS
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstRun m c).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, ⟨%e12, H12⟩, ⟨%e13, H13⟩, ⟨%e14, H14⟩, ⟨%e15, H15⟩⟩
    isplitl [H13 H14 H15]
    · isplitl [H13]
      · unfold owns Y0; iexists _; isplitr
        swap; · iexact H13
        ipureintro; exact View.read_writes_eq_canon _ _ _ (cover13 m c)
      isplitl [H14]
      · unfold owns Y1; iexists _; isplitr
        swap; · iexact H14
        ipureintro; exact View.read_writes_eq_canon _ _ _ (cover14 m c)
      unfold owns; iexists _, _; isplitr
      swap; · iexact H15
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H12
    ipureintro; exact View.read_writes_eq_canon _ _ _ (cover12_first m c t0 rfl)
  · unfold out10; rw [dif_neg hz]
    obtain ⟨n, hn⟩ : ∃ n, t.val = n + 1 := ⟨t.val - 1, by omega⟩
    rw [show PhiS m c t.val = PhiS m c (n + 1) from by rw [hn]]
    unfold PhiS
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (fun e => hz ((hcond1 t).mp e)) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t) (Y0 m c) (Y1 m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, ⟨%e12, H12⟩, H13, H14, ⟨%e15, H15⟩⟩
    isplitl [H13 H14 H15]
    · isplitl [H13]; · iexact H13
      isplitl [H14]; · iexact H14
      unfold owns; iexists _, _; isplitr
      swap; · iexact H15
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H12
    ipureintro; exact View.read_writes_eq_canon _ _ _ (cover12_later m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsLaunch.lean ====
/-
  The run of the program around its one region, and the frame.

  The program is two reshapes (the features to a matrix, the bias to a row), the region, and a broadcast of the region's
  result. Three arrays are each read through two windows — the feature matrix whole and by row panel, each adjacency
  matrix by left and right half — so at the region's entry each of them, held whole, is split into two half shares, one
  per window, and the halves are put back together when the final state is read. The last line touches only the
  region's result and the program's result. The seven arguments end as they began.
-/
import proofs.«111522_g38826504356516_cont_8to1_b_1379_24_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (withArrays afterTail₀)

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, the broadcast of the result: it reduces to the region continued by the
    broadcast, at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The arrays, window by window: an array two windows read is held at one half share by each -/

/-- The distinct buffers behind the windows' arrays, listed. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_arg1) ↦{fullShare} Vc main_arg1)
          ∗ (((c : Thread nD τ).loc main_arg2) ↦{fullShare} Vc main_arg2) ∗ (((c : Thread nD τ).loc main_arg3) ↦{fullShare} Vc main_arg3)
          ∗ (((c : Thread nD τ).loc main_arg4) ↦{fullShare} Vc main_arg4) ∗ (((c : Thread nD τ).loc main_arg5) ↦{fullShare} Vc main_arg5)
          ∗ (((c : Thread nD τ).loc main_call0_v0) ↦{fullShare} Vc main_call0_v0) ∗ (((c : Thread nD τ).loc main_v1) ↦{fullShare} Vc main_v1)) := by
  unfold Pipeline.arrBufs
  exact bigSep_eq_bigSepL_of_eq [main_v0, main_arg1, main_arg2, main_arg3, main_arg4, main_arg5, main_call0_v0, main_v1] (by decide) (by decide) _

theorem share_0 (c : Dev nD) : (dats m 0 c).share 0 = fullShare.left := by
  unfold Dat.share; rw [if_neg (show ¬ ((cfg0.win 0).isOut = true) from by decide)]; dsimp only [dats]
theorem share_1 (c : Dev nD) : (dats m 0 c).share 1 = fullShare.right := by
  unfold Dat.share; rw [if_neg (show ¬ ((cfg0.win 1).isOut = true) from by decide)]; dsimp only [dats]
theorem share_2 (c : Dev nD) : (dats m 0 c).share 2 = fullShare.left := by
  unfold Dat.share; rw [if_neg (show ¬ ((cfg0.win 2).isOut = true) from by decide)]; dsimp only [dats]
theorem share_3 (c : Dev nD) : (dats m 0 c).share 3 = fullShare.right := by
  unfold Dat.share; rw [if_neg (show ¬ ((cfg0.win 3).isOut = true) from by decide)]; dsimp only [dats]
theorem share_4 (c : Dev nD) : (dats m 0 c).share 4 = fullShare.left := by
  unfold Dat.share; rw [if_neg (show ¬ ((cfg0.win 4).isOut = true) from by decide)]; dsimp only [dats]
theorem share_5 (c : Dev nD) : (dats m 0 c).share 5 = fullShare.right := by
  unfold Dat.share; rw [if_neg (show ¬ ((cfg0.win 5).isOut = true) from by decide)]; dsimp only [dats]
theorem share_6 (c : Dev nD) : (dats m 0 c).share 6 = fullShare := by
  unfold Dat.share; rw [if_neg (show ¬ ((cfg0.win 6).isOut = true) from by decide)]; dsimp only [dats]
theorem share_7 (c : Dev nD) : (dats m 0 c).share 7 = fullShare := by
  unfold Dat.share; rw [if_neg (show ¬ ((cfg0.win 7).isOut = true) from by decide)]; dsimp only [dats]
theorem share_8 (c : Dev nD) : (dats m 0 c).share 8 = fullShare := by
  unfold Dat.share; rw [if_neg (show ¬ ((cfg0.win 8).isOut = true) from by decide)]; dsimp only [dats]
theorem share_9 (c : Dev nD) : (dats m 0 c).share 9 = fullShare := by
  unfold Dat.share; rw [if_neg (show ¬ ((cfg0.win 9).isOut = true) from by decide)]; dsimp only [dats]
theorem share_10 (c : Dev nD) : (dats m 0 c).share 10 = fullShare := by
  unfold Dat.share; rw [if_pos (show (cfg0.win 10).isOut = true from by decide)]

/-- One window's array in the proof data's `arrays`: the buffer behind it, whole, at the window's share. -/
theorem arr_pt (c : Dev nD) (w : Fin cfg0.W) (q : PosShare TreeShare) (hq : (dats m 0 c).share w = q)
    (A : Buf (Elt F) ((cfg0.win w).arr.view.loc (c : Thread nD τ))) :
    (((cfg0.win w).arr.view.loc (c : Thread nD τ)) ↦[(cfg0.win w).arr.view.set]{(dats m 0 c).share w} A : sProp 𝕄)
      = (((c : Thread nD τ).loc (Pipeline.arrRef spec0 w)) ↦{q} A) := by
  rw [(arr_whole0 w).set_eq_univ, hq]

/-- The proof data's arrays, window by window, each at its share. -/
theorem arrays_chain (c : Dev nD) (A : (w : Fin cfg0.W) → Buf (Elt F) ((cfg0.win w).arr.view.loc (c : Thread nD τ))) :
    ((dats m 0 c).arrays A : sProp 𝕄)
      = iprop((((c : Thread nD τ).loc main_v0) ↦{fullShare.left} A 0) ∗ (((c : Thread nD τ).loc main_v0) ↦{fullShare.right} A 1)
          ∗ (((c : Thread nD τ).loc main_arg1) ↦{fullShare.left} A 2) ∗ (((c : Thread nD τ).loc main_arg1) ↦{fullShare.right} A 3)
          ∗ (((c : Thread nD τ).loc main_arg2) ↦{fullShare.left} A 4) ∗ (((c : Thread nD τ).loc main_arg2) ↦{fullShare.right} A 5)
          ∗ (((c : Thread nD τ).loc main_arg3) ↦{fullShare} A 6) ∗ (((c : Thread nD τ).loc main_arg4) ↦{fullShare} A 7)
          ∗ (((c : Thread nD τ).loc main_arg5) ↦{fullShare} A 8) ∗ (((c : Thread nD τ).loc main_call0_v0) ↦{fullShare} A 9)
          ∗ (((c : Thread nD τ).loc main_v1) ↦{fullShare} A 10)) := by
  unfold Dat.arrays
  rw [bigSep_W0]
  exact congrArg₂ BI.sep (arr_pt m c 0 _ (share_0 m c) _) (congrArg₂ BI.sep (arr_pt m c 1 _ (share_1 m c) _) (congrArg₂ BI.sep (arr_pt m c 2 _ (share_2 m c) _) (congrArg₂ BI.sep (arr_pt m c 3 _ (share_3 m c) _) (congrArg₂ BI.sep (arr_pt m c 4 _ (share_4 m c) _) (congrArg₂ BI.sep (arr_pt m c 5 _ (share_5 m c) _) (congrArg₂ BI.sep (arr_pt m c 6 _ (share_6 m c) _) (congrArg₂ BI.sep (arr_pt m c 7 _ (share_7 m c) _) (congrArg₂ BI.sep (arr_pt m c 8 _ (share_8 m c) _) (congrArg₂ BI.sep (arr_pt m c 9 _ (share_9 m c) _) (arr_pt m c 10 _ (share_10 m c) _))))))))))

/-- The buffers behind the arrays, whole at the contents the region finds, are the proof data's arrays at entry: each
    array two windows read is split into its two halves. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays_chain]
  iintro ⟨Hv0, Ha1, Ha2, Ha3, Ha4, Ha5, Hc0, Hv1⟩
  ihave Hv0' := (pointsTo_share (PosShare.mem_left_op_right fullShare)).1 $$ Hv0
  ihave Ha1' := (pointsTo_share (PosShare.mem_left_op_right fullShare)).1 $$ Ha1
  ihave Ha2' := (pointsTo_share (PosShare.mem_left_op_right fullShare)).1 $$ Ha2
  icases Hv0' with ⟨Hv0l, Hv0r⟩
  icases Ha1' with ⟨Ha1l, Ha1r⟩
  icases Ha2' with ⟨Ha2l, Ha2r⟩
  isplitl [Hv0l]; · iexact Hv0l
  isplitl [Hv0r]; · iexact Hv0r
  isplitl [Ha1l]; · iexact Ha1l
  isplitl [Ha1r]; · iexact Ha1r
  isplitl [Ha2l]; · iexact Ha2l
  isplitl [Ha2r]; · iexact Ha2r
  isplitl [Ha3]; · iexact Ha3
  isplitl [Ha4]; · iexact Ha4
  isplitl [Ha5]; · iexact Ha5
  isplitl [Hc0]; · iexact Hc0
  iexact Hv1

/-! ## The line after the region: the result broadcast into the program's result -/

/-- Only the output window's array is the kernel's result buffer. -/
theorem uniq10 : ∀ w : Fin 11, Pipeline.arrRef spec0 w = main_v1 → w = 10 := by decide

/-- The valuation "the arrays at `A`, every other buffer at `V₀`" read at the kernel's result buffer. -/
theorem withArrays_v1 (c : Dev nD) (V₀ : Valuation τ sig (Elt F))
    (A : (w : Fin cfg0.W) → Buf (Elt F) ((cfg0.win w).arr.view.loc (c : Thread nD τ))) :
    withArrays spec0 c V₀ A (Proc.devRef .tc main_v1) = A 10 := by
  unfold Pipeline.withArrays
  have h : ∃ w', Proc.devRef .tc (Pipeline.arrRef spec0 w') = Proc.devRef (τ := τ) .tc main_v1 := ⟨10, rfl⟩
  rw [dif_pos h]
  suffices ∀ (w' : Fin 11) (e : Proc.devRef .tc (Pipeline.arrRef spec0 w') = Proc.devRef (τ := τ) .tc main_v1),
      cast (congrArg (fun b' : DevRef τ sig => b'.ty.Contents (Elt F)) e) (A w') = A 10 from this _ h.choose_spec
  intro w' e
  obtain rfl : w' = 10 := uniq10 w' (Proc.devRef_injective _ e)
  rfl

/-- The contents at the region's exit: the arrays at what the write-backs leave, the rest as the region found it. -/
abbrev Wexit (c : Dev nD) : Valuation τ sig (Elt F) := withArrays spec0 c (V0 m c) fun w => (dats m 0 c).arrAt w cfg0.N

/-- The two buffers the last line touches. -/
abbrev S1 : Finset (DevRef τ sig) := {Proc.devRef .tc main_v1, Proc.devRef .tc main_v2}

theorem held_S1 (c : Dev nD) (Wv : Valuation τ sig (Elt F)) :
    (StableHlo.held (c : Thread nD τ) S1 Wv : sProp 𝕄)
      = iprop((((c : Thread nD τ).loc main_v1) ↦{fullShare} Wv (Proc.devRef .tc main_v1)) ∗ (((c : Thread nD τ).loc main_v2) ↦{fullShare} Wv (Proc.devRef .tc main_v2))) := by
  unfold StableHlo.held S1
  rw [bigSep_insert (by decide), bigSep_singleton]
  rfl

theorem hostOps1_S1 : ∀ op ∈ (hostOps1 : List (HloOp τ sig (Elt F))), op.bufs ⊆ S1 := by
  intro op hop
  simp only [hostOps1, List.mem_cons, List.mem_nil_iff, or_false] at hop
  subst hop
  rw [StableHlo.unary_bufs]

/-- What every unscoped buffer that is no array holds after the last line. -/
abbrev VT (c : Dev nD) (b : Ref sig .tc) : Buf (Elt F) ((c : Thread nD τ).loc b) := afterTail₀ cfgs (dats m) 0 (V0 m) [hostOps1] c b

theorem VT_eq (c : Dev nD) (b : Ref sig .tc) : VT m c b = StableHlo.after hostOps1 (Wexit m c) (Proc.devRef .tc b) := by
  unfold VT Pipeline.afterTail₀
  simp only [List.flatten_cons, List.flatten_nil, List.append_nil]

/-- A buffer the last line does not write and that is no array ends as the region found it. -/
theorem VT_kept (c : Dev nD) (b : Ref sig .tc) (hb : ∀ w, Pipeline.arrRef spec0 w ≠ b) (hw : b ≠ main_v2) : VT m c b = V m c b := by
  rw [VT_eq, StableHlo.after_of_forall_not_mem _ _ fun op hop => ?_]
  · exact Pipeline.withArrays_of_ne spec0 c _ _ b hb
  · simp only [hostOps1, List.mem_cons, List.mem_nil_iff, or_false] at hop
    subst hop
    simp only [StableHlo.unary_writes, Finset.mem_singleton]
    exact StableHlo.devRef_ne_of_ne hw

theorem Wexit_v1 (c : Dev nD) : Wexit m c (Proc.devRef .tc main_v1) = (dats m 0 c).arrAt 10 cfg0.N := withArrays_v1 c _ _
theorem Wexit_v2 (c : Dev nD) : Wexit m c (Proc.devRef .tc main_v2) = V m c main_v2 :=
  Pipeline.withArrays_of_ne spec0 c _ _ main_v2 (by decide)

/-- The two buffers at the region's exit, -/
theorem held_exit (c : Dev nD) :
    (StableHlo.held (c : Thread nD τ) S1 (Wexit m c) : sProp 𝕄)
      = iprop((((c : Thread nD τ).loc main_v1) ↦{fullShare} (dats m 0 c).arrAt 10 cfg0.N) ∗ (((c : Thread nD τ).loc main_v2) ↦{fullShare} V m c main_v2)) := by
  rw [held_S1, Wexit_v1, Wexit_v2]

/-- and after the last line: the kernel's result untouched, the program's result written. -/
theorem held_after (c : Dev nD) :
    (StableHlo.held (c : Thread nD τ) S1 (StableHlo.after hostOps1 (Wexit m c)) : sProp 𝕄)
      = iprop((((c : Thread nD τ).loc main_v1) ↦{fullShare} (dats m 0 c).arrAt 10 cfg0.N) ∗ (((c : Thread nD τ).loc main_v2) ↦{fullShare} VT m c main_v2)) := by
  rw [held_S1, StableHlo.after_of_forall_not_mem (b := Proc.devRef .tc main_v1) _ _ fun op hop => ?_, Wexit_v1, VT_eq]
  simp only [hostOps1, List.mem_cons, List.mem_nil_iff, or_false] at hop
  subst hop
  simp only [StableHlo.unary_writes, Finset.mem_singleton]
  exact StableHlo.devRef_ne_of_ne (by decide)

set_option backward.isDefEq.respectTransparency.types false in
/-- The last line, run from the region's exit: it reads the kernel's result and writes the program's. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (VT m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  rw [Pipeline.unscopedRestP_none, Pipeline.unscopedRestP_none, unscopedRest0_eq, unscopedRest0_eq, arrays_chain,
    VT_kept m c main_arg0 (by decide) (by decide), VT_kept m c main_arg6 (by decide) (by decide)]
  iintro ⟨Hk, Hb, ⟨A0, A1, A2, A3, A4, A5, A6, A7, A8, A9, A10⟩, ⟨Ha0, Ha6, Hv2⟩⟩
  rw [Pipeline.chain_cons, Pipeline.chain_nil]
  ihave Hw := (StableHlo.wp_seq (Variants.lift Variants.none) none Set.univ c S1 (fun _ => pure PUnit.unit) hostOps1 hostOps1_S1
    (fun op hop => (List.forall_iff_forall_mem.mp hostOps1_fresh) op hop) (Wexit m c)) $$ [Hb A10 Hv2]
  · rw [held_exit]
    isplitl [Hb]; · iexact Hb
    isplitl [A10]; · iexact A10
    iexact Hv2
  iapply Hw
  rw [held_after]
  iintro ⟨Hb, A10, Hv2⟩
  rw [wp_pure]
  imodintro
  iapply Hk
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [Ha0]; · iexact Ha0
  isplitl [Ha6]; · iexact Ha6
  iexact Hv2

/-! ## The run -/

theorem hin (c : Dev nD) :
    iprop((BI.emp : sProp 𝕄) ∗ Pipeline.prefHeld (Ix := Unit) (Name := ℕ) (U := UR sig nD τ) (Lvl := ℕ) Pipeline.Prefetch.none c (fun _ => fullShare.right) (fun k => k.elim0)
        ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl]
  unfold PhiS
  iintro ⟨-, -, H⟩; iexact H

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (31 + 1) from rfl, scopedRest0_eq]
  unfold PhiS
  simp only [sc0, sc1, sc2, owns_whole]
  iintro ⟨H0, H1, H2⟩
  isplitr; · iempintro
  isplitl [H0]; · iexists _; iexact H0
  isplitl [H1]; · iexists _; iexact H1
  iexact H2

set_option backward.isDefEq.respectTransparency.types false in
/-- From any memory with zero counters every weakly fair execution of @main terminates, every array of the pipeline
    ending at what the library computes from the proof data and every other unscoped buffer as the last line leaves it. -/
theorem run_main : θ_run defs (onTc (τ := τ) (main (F := F))) (s₀ m ρ) (Pipeline.FramePost cfgs (dats m) 0 (VT m)) := by
  classical
  exact Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => BI.emp) (Y := fun _ => BI.emp)
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (VT m c))
    (hX := fun c => by iintro H; isplitr; · iempintro
                       iexact H)
    (hin := hin m) (hout := hout m) (htail := htail m)
    (QY := fun c s => ∀ b ∈ Pipeline.restRefsP sig Pipeline.Prefetch.none spec0, s.mem ((c : Thread nD τ).loc b) = VT m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (VT m c) s')
      isplitl [HU] <;> iassumption)
    (hQ := fun s h c => ⟨(h c).1, fun b hb => (h c).2.2 b (by
      simp only [Pipeline.restRefsP]; exact Finset.mem_sdiff.mpr ⟨hb, by simp⟩)⟩)

/-! ## The frame: the argument arrays end as they began -/

theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, List.flatten_cons, List.flatten_nil, List.append_nil, List.cons_append, List.nil_append]
  after_results
theorem V_main_arg3 (c : Dev nD) : V m c main_arg3 = m ((c : Thread nD τ).loc main_arg3) := by
  dsimp only [V, V0]
  simp only [hostOps0, hostOps0_1, List.flatten_cons, List.flatten_nil, List.append_nil, List.cons_append, List.nil_append]
  after_results
theorem V_main_arg4 (c : Dev nD) : V m c main_arg4 = m ((c : Thread nD τ).loc main_arg4) := by
  dsimp only [V, V0]
  simp only [hostOps0, hostOps0_1, List.flatten_cons, List.flatten_nil, List.append_nil, List.cons_append, List.nil_append]
  after_results
theorem V_main_arg5 (c : Dev nD) : V m c main_arg5 = m ((c : Thread nD τ).loc main_arg5) := by
  dsimp only [V, V0]
  simp only [hostOps0, hostOps0_1, List.flatten_cons, List.flatten_nil, List.append_nil, List.cons_append, List.nil_append]
  after_results
theorem V_main_arg6 (c : Dev nD) : V m c main_arg6 = m ((c : Thread nD τ).loc main_arg6) := by
  dsimp only [V, V0]
  simp only [hostOps0, hostOps0_1, List.flatten_cons, List.flatten_nil, List.append_nil, List.cons_append, List.nil_append]
  after_results

/-- An argument array no window stages is a bypassing buffer the last line does not write. -/
theorem rest_main_arg0 : main_arg0 ∈ Pipeline.restRefs sig spec0 := Pipeline.mem_restRefs_of _ rfl (by decide)
theorem rest_main_arg6 : main_arg6 ∈ Pipeline.restRefs sig spec0 := Pipeline.mem_restRefs_of _ rfl (by decide)
theorem rest_main_v2 : main_v2 ∈ Pipeline.restRefs sig spec0 := Pipeline.mem_restRefs_of _ rfl (by decide)

/-- THE FRAME: every weakly fair execution of @main terminates without a fault, and the seven argument arrays end
    holding what they held at launch: the features and the bias bypass the region and the last line does not write them;
    the adjacency matrices and the three kernels are input arrays, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    ((h c).2 main_arg0 rest_main_arg0).trans ((VT_kept m c main_arg0 (by decide) (by decide)).trans (V_main_arg0 m c)),
    ((h c).1 2).trans (((dats m 0 c).arrAt_in 2 rfl _).trans ((A_eq m c 2).trans (V_main_arg1 m c))),
    ((h c).1 4).trans (((dats m 0 c).arrAt_in 4 rfl _).trans ((A_eq m c 4).trans (V_main_arg2 m c))),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c))),
    ((h c).1 8).trans (((dats m 0 c).arrAt_in 8 rfl _).trans ((A_eq m c 8).trans (V_main_arg5 m c))),
    ((h c).2 main_arg6 rest_main_arg6).trans ((VT_kept m c main_arg6 (by decide) (by decide)).trans (V_main_arg6 m c))⟩)
    (run_main m ρ)

end Cert.Kernel.Hand

end
-- ==== Proof.IdealBodyFirst.lean ====
/-
  The body of the graph-convolution kernel at the FIRST row panel, run once symbolically.

  At the first grid point the body forms the two products of the feature block with the two relation kernels and stores
  each whole into its own scratch array; it then sets the accumulator to the self term plus the bias, loads the two halves
  of each stored product back, adds the four half contractions into the accumulator, and stores the accumulator clamped
  below at zero into the output block. The run leaves, per buffer the body stores into, the list of its stores (last
  first): one store covering the output block, one covering each of the first two scratch arrays.
-/
import proofs.«111522_g38826504356516_cont_8to1_b_1379_24_alg».proof.Proof.Gen.KernelIdeal.Launch
import proofs.«111522_g38826504356516_cont_8to1_b_1379_24_alg».proof.Proof.Gen.KernelIdeal.Skeleton
import proofs.«111522_g38826504356516_cont_8to1_b_1379_24_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The second conditional's test, on the grid coordinates: the column-panel index is zero. -/
abbrev cond2 (i : grid0.Coords) : Prop :=
  (Scalar.cmpi .ne (Scalar.extui (Scalar.cmpi .eq (BitVec.ofNat 32 (i 1).val) 0#32)) 0#32) = 1#1

set_option maxHeartbeats 4000000 in
/-- The body at the first row panel (the first conditional taken): on whole memrefs, the ten input blocks at their
    contents, the output block and the three scratch arrays at anything, it runs to the continuation with the inputs as
    they were and the output block and each scratch array overwritten by the pieces its stores leave (last first; the run
    finds them): the two products X·W₀, X·W₁ into the first two scratch arrays, the accumulator into the third, the
    clamped accumulator into the output block. -/
noncomputable def runFirst (c : Dev nD) (i : grid0.Coords) (arg2 : Memref sig .tc .vmem S8192x128 .f32) (harg2 : arg2.IsWhole) (arg3 : Memref sig .tc .vmem S256x128 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x8192x128 .f32) (harg13 : arg13.IsWhole) (arg14 : Memref sig .tc .vmem S1x8192x128 .f32) (harg14 : arg14.IsWhole) (arg15 : Memref sig .tc .vmem S256x128 .f32) (harg15 : arg15.IsWhole)
    (hc1 : k0_cond1 i = 1#1) (hc2 : cond2 i) (hc3 : k0_cond3 i = 1#1) (x0 : Vec F S8192x128 .f32) (x1 : Vec F S256x128 .f32) (x2 x3 x4 x5 : Vec F S256x4096 .f32) (x6 x7 x8 : Vec F S128x128 .f32) (x9 : Vec F S1x128 .f32) :
    Σ' (L12 : List (View.Piece (Elt F) S256x128 .f32)) (L13 : List (View.Piece (Elt F) S1x8192x128 .f32)) (L14 : List (View.Piece (Elt F) S1x8192x128 .f32)), { L15 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H12]; · iexists _; iexact H12
    isplitl [H13]; · iexists _; iexact H13
    isplitl [H14]; · iexists _; iexact H14
    iexists _; iexact H15

end Cert.KernelIdeal.Hand

end
-- ==== Proof.IdealBodyLater.lean ====
/-
  The body at a LATER row panel, run once symbolically.

  Past the first grid point the body skips the two products: it only reads the two scratch arrays, which must then hold
  what the first panel stored, and leaves them untouched. The accumulator and the output block are filled as at the
  first panel.
-/
import proofs.«111522_g38826504356516_cont_8to1_b_1379_24_alg».proof.Proof.IdealBodyFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a later row panel (the first conditional not taken): on whole memrefs, the ten input blocks at their
    contents, the first two scratch arrays at the contents `y0`, `y1` an earlier panel left, the output block and the
    third scratch array at anything, it runs to the continuation with the inputs and the first two scratch arrays as they
    were and the output block and the third scratch array overwritten by the pieces its stores leave. -/
noncomputable def runLater (c : Dev nD) (i : grid0.Coords) (arg2 : Memref sig .tc .vmem S8192x128 .f32) (harg2 : arg2.IsWhole) (arg3 : Memref sig .tc .vmem S256x128 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x8192x128 .f32) (harg13 : arg13.IsWhole) (arg14 : Memref sig .tc .vmem S1x8192x128 .f32) (harg14 : arg14.IsWhole) (arg15 : Memref sig .tc .vmem S256x128 .f32) (harg15 : arg15.IsWhole)
    (hc1 : ¬ k0_cond1 i = 1#1) (hc2 : cond2 i) (hc3 : k0_cond3 i = 1#1) (x0 : Vec F S8192x128 .f32) (x1 : Vec F S256x128 .f32) (x2 x3 x4 x5 : Vec F S256x4096 .f32) (x6 x7 x8 : Vec F S128x128 .f32) (x9 : Vec F S1x128 .f32)
    (y0 y1 : Vec F S1x8192x128 .f32) :
    Σ' (L12 : List (View.Piece (Elt F) S256x128 .f32)), { L15 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare y0 ∗ owns (c : Thread nD τ) arg14 fullShare y1 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L12)
                ∗ owns (c : Thread nD τ) arg13 fullShare y0 ∗ owns (c : Thread nD τ) arg14 fullShare y1
                ∗ (∃ f, arg15.view.loc (c : Thread nD τ) ↦[arg15.view.set]{fullShare} arg15.view.writes (Elt F) f L15)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%f13, %hf13, H13⟩, ⟨%f14, %hf14, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hf13; obtain rfl := harg14.eq_unread hf14
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H12]; · iexists _; iexact H12
    isplitl [H13]
    · iexists _; isplitr; · ipureintro; exact harg13.read_unread _
      iexact H13
    isplitl [H14]
    · iexists _; isplitr; · ipureintro; exact harg14.read_unread _
      iexact H14
    iexists _; iexact H15

end Cert.KernelIdeal.Hand

end
-- ==== Proof.IdealData.lean ====
/-
  What the pipelined region holds at each of its 32 grid points.

  Every input window's staging buffer holds that window's block of its array at every point, fetched there or carried
  over (the feature block and the small operands are fetched once, their block index never moves). The output block is
  what the point's run stored. Between points the region keeps its three scratch arrays: before the first point at
  anything; afterwards the first two at the products the first panel stored — the same at every later point — and the
  accumulator at anything. An array read through two windows is held by each at one half share.
-/
import proofs.«111522_g38826504356516_cont_8to1_b_1379_24_alg».proof.Proof.IdealBodyLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them, and the windows' blocks -/

/-- Core `c`'s buffer contents when the region is entered: the launch memory after the two reshapes before it
    (the features as a matrix, the bias as one row). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions over the grid: 32 row panels, one column panel -/

/-- The first conditional is taken at the first row panel only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second and the third are taken at every point: there is one column panel. -/
theorem hcond2 : ∀ t : Fin cfg0.N, cond2 (grid0.coords t) :=
  (by decide +kernel : ∀ t : Fin grid0.N, cond2 (grid0.coords t))
theorem hcond3 : ∀ t : Fin cfg0.N, k0_cond3 (grid0.coords t) = 1#1 :=
  (by decide +kernel : ∀ t : Fin grid0.N, k0_cond3 (grid0.coords t) = 1#1)
/-- So the output window is stored at every point: never idle. -/
theorem live10 : ∀ t : Fin cfg0.N, cfg0.idle 10 (grid0.coords t) = false :=
  (by decide +kernel : ∀ t : Fin grid0.N, cfg0.idle 10 (grid0.coords t) = false)

/-! ## The memrefs the pipeline calls the body with -/

abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev sc0 : Memref sig .tc .vmem S1x8192x128 .f32 := Memref.whole cc0_scratch0
abbrev sc1 : Memref sig .tc .vmem S1x8192x128 .f32 := Memref.whole cc0_scratch1
abbrev sc2 : Memref sig .tc .vmem S256x128 .f32 := Memref.whole cc0_scratch2

/-- The first grid point. -/
abbrev t0 : Fin cfg0.N := ⟨0, by decide⟩

/-! ## What the body leaves -/

/-- The first panel's run at the first point's memrefs and blocks. -/
abbrev firstRun (c : Dev nD) :=
  runFirst (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) sc0 (Memref.isWhole_whole _) sc1 (Memref.isWhole_whole _) sc2 (Memref.isWhole_whole _) ((hcond1 t0).mpr rfl) (hcond2 t0) (hcond3 t0) (iblk m c 0 t0) (iblk m c 1 t0) (iblk m c 2 t0) (iblk m c 3 t0) (iblk m c 4 t0) (iblk m c 5 t0) (iblk m c 6 t0) (iblk m c 7 t0) (iblk m c 8 t0) (iblk m c 9 t0)

/-- What the first panel leaves in the first two scratch arrays (the products of the feature matrix with the two
    relation kernels), which every later panel reads and none overwrites. -/
def Y0 (c : Dev nD) : Vec F S1x8192x128 .f32 := View.canon (firstRun m c).2.1
def Y1 (c : Dev nD) : Vec F S1x8192x128 .f32 := View.canon (firstRun m c).2.2.1

/-- What the body leaves in the output block at point `t`. -/
def out10 (c : Dev nD) (t : Fin cfg0.N) : Vec F S256x128 .f32 :=
  if h : t.val = 0 then
    View.canon (runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) ((hcond1 t).mpr h) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t)).1
  else
    View.canon (runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (fun e => h ((hcond1 t).mp e)) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t) (Y0 m c) (Y1 m c)).1

/-- The region's invariant before position `n`: before the first point the scratch arrays at anything; afterwards the
    first two at the products the first panel left, the accumulator at anything. -/
def PhiS (c : Dev nD) : (n : ℕ) → sProp 𝕄
  | 0 => Pipeline.scopedRest (Ix := Unit) (Name := ℕ) (U := UR sig nD τ) (Lvl := ℕ) (Val := Elt F) spec0 c
  | _ + 1 => iprop(owns (c : Thread nD τ) sc0 fullShare (Y0 m c) ∗ owns (c : Thread nD τ) sc1 fullShare (Y1 m c) ∗ (∃ d, owns (c : Thread nD τ) sc2 fullShare d))

/-! ## The proof data -/

/-- The pipeline's proof data on core `c`: the arrays as the region finds them; after the body each input's buffer at
    its block, the output's at `out10`; the invariant `PhiS`; an array two windows read is held at one half share by
    each, the others whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after_10 (c : Dev nD) (t : Fin cfg0.N) : (dats m 0 c).after 10 t = out10 m c t := by dsimp only [dats]

/-! ## Every input's buffer holds its block at every point, fetched there or not -/

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

end Cert.KernelIdeal.Hand

end
-- ==== Proof.IdealBody.lean ====
/-
  The body's obligation at every grid point.

  The single store into the output block, and at the first panel the single store into each product's scratch array, is
  through the whole-shape rectangle, so the stores cover those buffers and what they hold afterwards does not depend on
  what they held before. At the first panel the first run applies from scratch arrays at anything; at a later panel the
  second run applies from the products the region's invariant names, and hands them back.
-/
import proofs.«111522_g38826504356516_cont_8to1_b_1379_24_alg».proof.Proof.IdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover what they are said to fill -/

/-- At the first panel the one store into the output block fills it. -/
theorem cover12_first (c : Dev nD) (t : Fin cfg0.N) (h : t.val = 0) (y : S256x128.Idx) :
    ∃ pc ∈ (runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) ((hcond1 t).mpr h) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t)).1, y ∈ pc.1.set :=
  View.cover_of_tiledL _ S256x128.size (by sl_kernel_rfl) y

/-- At a later panel likewise. -/
theorem cover12_later (c : Dev nD) (t : Fin cfg0.N) (h : ¬ t.val = 0) (y : S256x128.Idx) :
    ∃ pc ∈ (runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (fun e => h ((hcond1 t).mp e)) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t) (Y0 m c) (Y1 m c)).1, y ∈ pc.1.set :=
  View.cover_of_tiledL _ S256x128.size (by sl_kernel_rfl) y

/-- The first panel's one store into each of the first two scratch arrays fills it. -/
theorem cover13 (c : Dev nD) (y : S1x8192x128.Idx) : ∃ pc ∈ (firstRun m c).2.1, y ∈ pc.1.set :=
  View.cover_of_tiledL _ S1x8192x128.size (by sl_kernel_rfl) y
theorem cover14 (c : Dev nD) (y : S1x8192x128.Idx) : ∃ pc ∈ (firstRun m c).2.2.1, y ∈ pc.1.set :=
  View.cover_of_tiledL _ S1x8192x128.size (by sl_kernel_rfl) y

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = PhiS m c t.val := by
  dsimp only [dats]; simp only [Fin.coe_castSucc]

/-- The scratch arrays at anything, as memrefs owned at some contents. -/
theorem PhiS_zero_eq (c : Dev nD) :
    (PhiS m c 0 : sProp 𝕄) = iprop((∃ d, owns (c : Thread nD τ) sc0 fullShare d) ∗ (∃ d, owns (c : Thread nD τ) sc1 fullShare d) ∗ (∃ d, owns (c : Thread nD τ) sc2 fullShare d)) := by
  unfold PhiS; rw [scopedRest0_eq]; simp only [sc0, sc1, sc2, owns_whole]; try rfl

set_option maxHeartbeats 4800000 in
/-- The body at any point. Every input's memref holds its block. At the first row panel the scratch arrays hold anything
    and the first panel's run applies: it leaves the two products in the first two scratch arrays, which the invariant
    then names. At a later panel the invariant hands the body those products, the later panel's run applies and hands
    them back untouched. Either way the output block is left at what the run's store put there, and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  rw [show (dats m 0 c).leavesExact 8 t = owns (c : Thread nD τ) (ms8 t) fullShare ((dats m 0 c).after 8 t) from rfl, after_8]
  rw [show (dats m 0 c).leavesExact 9 t = owns (c : Thread nD τ) (ms9 t) fullShare ((dats m 0 c).after 9 t) from rfl, after_9]
  rw [show (dats m 0 c).leavesExact 10 t = owns (c : Thread nD τ) (ms10 t) fullShare ((dats m 0 c).after 10 t) from by
    unfold Dat.leavesExact; rw [live10 t], after_10]
  by_cases hz : t.val = 0
  · unfold out10; rw [dif_pos hz]
    obtain rfl : t = t0 := Fin.ext hz
    rw [show PhiS m c (t0 : Fin cfg0.N).val = PhiS m c 0 from rfl, PhiS_zero_eq]
    unfold PhiS
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstRun m c).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, ⟨%e12, H12⟩, ⟨%e13, H13⟩, ⟨%e14, H14⟩, ⟨%e15, H15⟩⟩
    isplitl [H13 H14 H15]
    · isplitl [H13]
      · unfold owns Y0; iexists _; isplitr
        swap; · iexact H13
        ipureintro; exact View.read_writes_eq_canon _ _ _ (cover13 m c)
      isplitl [H14]
      · unfold owns Y1; iexists _; isplitr
        swap; · iexact H14
        ipureintro; exact View.read_writes_eq_canon _ _ _ (cover14 m c)
      unfold owns; iexists _, _; isplitr
      swap; · iexact H15
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H12
    ipureintro; exact View.read_writes_eq_canon _ _ _ (cover12_first m c t0 rfl)
  · unfold out10; rw [dif_neg hz]
    obtain ⟨n, hn⟩ : ∃ n, t.val = n + 1 := ⟨t.val - 1, by omega⟩
    rw [show PhiS m c t.val = PhiS m c (n + 1) from by rw [hn]]
    unfold PhiS
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (fun e => hz ((hcond1 t).mp e)) (hcond2 t) (hcond3 t) (iblk m c 0 t) (iblk m c 1 t) (iblk m c 2 t) (iblk m c 3 t) (iblk m c 4 t) (iblk m c 5 t) (iblk m c 6 t) (iblk m c 7 t) (iblk m c 8 t) (iblk m c 9 t) (Y0 m c) (Y1 m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, ⟨%e12, H12⟩, H13, H14, ⟨%e15, H15⟩⟩
    isplitl [H13 H14 H15]
    · isplitl [H13]; · iexact H13
      isplitl [H14]; · iexact H14
      unfold owns; iexists _, _; isplitr
      swap; · iexact H15
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H12
    ipureintro; exact View.read_writes_eq_canon _ _ _ (cover12_later m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealLaunch.lean ====
/-
  The run of the program around its one region, and the frame.

  The program is two reshapes (the features to a matrix, the bias to a row), the region, and a broadcast of the region's
  result. Three arrays are each read through two windows — the feature matrix whole and by row panel, each adjacency
  matrix by left and right half — so at the region's entry each of them, held whole, is split into two half shares, one
  per window, and the halves are put back together when the final state is read. The last line touches only the
  region's result and the program's result. The seven arguments end as they began.
-/
import proofs.«111522_g38826504356516_cont_8to1_b_1379_24_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (withArrays afterTail₀)

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, the broadcast of the result: it reduces to the region continued by the
    broadcast, at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The arrays, window by window: an array two windows read is held at one half share by each -/

/-- The distinct buffers behind the windows' arrays, listed. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_arg1) ↦{fullShare} Vc main_arg1)
          ∗ (((c : Thread nD τ).loc main_arg2) ↦{fullShare} Vc main_arg2) ∗ (((c : Thread nD τ).loc main_arg3) ↦{fullShare} Vc main_arg3)
          ∗ (((c : Thread nD τ).loc main_arg4) ↦{fullShare} Vc main_arg4) ∗ (((c : Thread nD τ).loc main_arg5) ↦{fullShare} Vc main_arg5)
          ∗ (((c : Thread nD τ).loc main_call0_v0) ↦{fullShare} Vc main_call0_v0) ∗ (((c : Thread nD τ).loc main_v1) ↦{fullShare} Vc main_v1)) := by
  unfold Pipeline.arrBufs
  exact bigSep_eq_bigSepL_of_eq [main_v0, main_arg1, main_arg2, main_arg3, main_arg4, main_arg5, main_call0_v0, main_v1] (by decide) (by decide) _

theorem share_0 (c : Dev nD) : (dats m 0 c).share 0 = fullShare.left := by
  unfold Dat.share; rw [if_neg (show ¬ ((cfg0.win 0).isOut = true) from by decide)]; dsimp only [dats]
theorem share_1 (c : Dev nD) : (dats m 0 c).share 1 = fullShare.right := by
  unfold Dat.share; rw [if_neg (show ¬ ((cfg0.win 1).isOut = true) from by decide)]; dsimp only [dats]
theorem share_2 (c : Dev nD) : (dats m 0 c).share 2 = fullShare.left := by
  unfold Dat.share; rw [if_neg (show ¬ ((cfg0.win 2).isOut = true) from by decide)]; dsimp only [dats]
theorem share_3 (c : Dev nD) : (dats m 0 c).share 3 = fullShare.right := by
  unfold Dat.share; rw [if_neg (show ¬ ((cfg0.win 3).isOut = true) from by decide)]; dsimp only [dats]
theorem share_4 (c : Dev nD) : (dats m 0 c).share 4 = fullShare.left := by
  unfold Dat.share; rw [if_neg (show ¬ ((cfg0.win 4).isOut = true) from by decide)]; dsimp only [dats]
theorem share_5 (c : Dev nD) : (dats m 0 c).share 5 = fullShare.right := by
  unfold Dat.share; rw [if_neg (show ¬ ((cfg0.win 5).isOut = true) from by decide)]; dsimp only [dats]
theorem share_6 (c : Dev nD) : (dats m 0 c).share 6 = fullShare := by
  unfold Dat.share; rw [if_neg (show ¬ ((cfg0.win 6).isOut = true) from by decide)]; dsimp only [dats]
theorem share_7 (c : Dev nD) : (dats m 0 c).share 7 = fullShare := by
  unfold Dat.share; rw [if_neg (show ¬ ((cfg0.win 7).isOut = true) from by decide)]; dsimp only [dats]
theorem share_8 (c : Dev nD) : (dats m 0 c).share 8 = fullShare := by
  unfold Dat.share; rw [if_neg (show ¬ ((cfg0.win 8).isOut = true) from by decide)]; dsimp only [dats]
theorem share_9 (c : Dev nD) : (dats m 0 c).share 9 = fullShare := by
  unfold Dat.share; rw [if_neg (show ¬ ((cfg0.win 9).isOut = true) from by decide)]; dsimp only [dats]
theorem share_10 (c : Dev nD) : (dats m 0 c).share 10 = fullShare := by
  unfold Dat.share; rw [if_pos (show (cfg0.win 10).isOut = true from by decide)]

/-- One window's array in the proof data's `arrays`: the buffer behind it, whole, at the window's share. -/
theorem arr_pt (c : Dev nD) (w : Fin cfg0.W) (q : PosShare TreeShare) (hq : (dats m 0 c).share w = q)
    (A : Buf (Elt F) ((cfg0.win w).arr.view.loc (c : Thread nD τ))) :
    (((cfg0.win w).arr.view.loc (c : Thread nD τ)) ↦[(cfg0.win w).arr.view.set]{(dats m 0 c).share w} A : sProp 𝕄)
      = (((c : Thread nD τ).loc (Pipeline.arrRef spec0 w)) ↦{q} A) := by
  rw [(arr_whole0 w).set_eq_univ, hq]

/-- The proof data's arrays, window by window, each at its share. -/
theorem arrays_chain (c : Dev nD) (A : (w : Fin cfg0.W) → Buf (Elt F) ((cfg0.win w).arr.view.loc (c : Thread nD τ))) :
    ((dats m 0 c).arrays A : sProp 𝕄)
      = iprop((((c : Thread nD τ).loc main_v0) ↦{fullShare.left} A 0) ∗ (((c : Thread nD τ).loc main_v0) ↦{fullShare.right} A 1)
          ∗ (((c : Thread nD τ).loc main_arg1) ↦{fullShare.left} A 2) ∗ (((c : Thread nD τ).loc main_arg1) ↦{fullShare.right} A 3)
          ∗ (((c : Thread nD τ).loc main_arg2) ↦{fullShare.left} A 4) ∗ (((c : Thread nD τ).loc main_arg2) ↦{fullShare.right} A 5)
          ∗ (((c : Thread nD τ).loc main_arg3) ↦{fullShare} A 6) ∗ (((c : Thread nD τ).loc main_arg4) ↦{fullShare} A 7)
          ∗ (((c : Thread nD τ).loc main_arg5) ↦{fullShare} A 8) ∗ (((c : Thread nD τ).loc main_call0_v0) ↦{fullShare} A 9)
          ∗ (((c : Thread nD τ).loc main_v1) ↦{fullShare} A 10)) := by
  unfold Dat.arrays
  rw [bigSep_W0]
  exact congrArg₂ BI.sep (arr_pt m c 0 _ (share_0 m c) _) (congrArg₂ BI.sep (arr_pt m c 1 _ (share_1 m c) _) (congrArg₂ BI.sep (arr_pt m c 2 _ (share_2 m c) _) (congrArg₂ BI.sep (arr_pt m c 3 _ (share_3 m c) _) (congrArg₂ BI.sep (arr_pt m c 4 _ (share_4 m c) _) (congrArg₂ BI.sep (arr_pt m c 5 _ (share_5 m c) _) (congrArg₂ BI.sep (arr_pt m c 6 _ (share_6 m c) _) (congrArg₂ BI.sep (arr_pt m c 7 _ (share_7 m c) _) (congrArg₂ BI.sep (arr_pt m c 8 _ (share_8 m c) _) (congrArg₂ BI.sep (arr_pt m c 9 _ (share_9 m c) _) (arr_pt m c 10 _ (share_10 m c) _))))))))))

/-- The buffers behind the arrays, whole at the contents the region finds, are the proof data's arrays at entry: each
    array two windows read is split into its two halves. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays_chain]
  iintro ⟨Hv0, Ha1, Ha2, Ha3, Ha4, Ha5, Hc0, Hv1⟩
  ihave Hv0' := (pointsTo_share (PosShare.mem_left_op_right fullShare)).1 $$ Hv0
  ihave Ha1' := (pointsTo_share (PosShare.mem_left_op_right fullShare)).1 $$ Ha1
  ihave Ha2' := (pointsTo_share (PosShare.mem_left_op_right fullShare)).1 $$ Ha2
  icases Hv0' with ⟨Hv0l, Hv0r⟩
  icases Ha1' with ⟨Ha1l, Ha1r⟩
  icases Ha2' with ⟨Ha2l, Ha2r⟩
  isplitl [Hv0l]; · iexact Hv0l
  isplitl [Hv0r]; · iexact Hv0r
  isplitl [Ha1l]; · iexact Ha1l
  isplitl [Ha1r]; · iexact Ha1r
  isplitl [Ha2l]; · iexact Ha2l
  isplitl [Ha2r]; · iexact Ha2r
  isplitl [Ha3]; · iexact Ha3
  isplitl [Ha4]; · iexact Ha4
  isplitl [Ha5]; · iexact Ha5
  isplitl [Hc0]; · iexact Hc0
  iexact Hv1

/-! ## The line after the region: the result broadcast into the program's result -/

/-- Only the output window's array is the kernel's result buffer. -/
theorem uniq10 : ∀ w : Fin 11, Pipeline.arrRef spec0 w = main_v1 → w = 10 := by decide

/-- The valuation "the arrays at `A`, every other buffer at `V₀`" read at the kernel's result buffer. -/
theorem withArrays_v1 (c : Dev nD) (V₀ : Valuation τ sig (Elt F))
    (A : (w : Fin cfg0.W) → Buf (Elt F) ((cfg0.win w).arr.view.loc (c : Thread nD τ))) :
    withArrays spec0 c V₀ A (Proc.devRef .tc main_v1) = A 10 := by
  unfold Pipeline.withArrays
  have h : ∃ w', Proc.devRef .tc (Pipeline.arrRef spec0 w') = Proc.devRef (τ := τ) .tc main_v1 := ⟨10, rfl⟩
  rw [dif_pos h]
  suffices ∀ (w' : Fin 11) (e : Proc.devRef .tc (Pipeline.arrRef spec0 w') = Proc.devRef (τ := τ) .tc main_v1),
      cast (congrArg (fun b' : DevRef τ sig => b'.ty.Contents (Elt F)) e) (A w') = A 10 from this _ h.choose_spec
  intro w' e
  obtain rfl : w' = 10 := uniq10 w' (Proc.devRef_injective _ e)
  rfl

/-- The contents at the region's exit: the arrays at what the write-backs leave, the rest as the region found it. -/
abbrev Wexit (c : Dev nD) : Valuation τ sig (Elt F) := withArrays spec0 c (V0 m c) fun w => (dats m 0 c).arrAt w cfg0.N

/-- The two buffers the last line touches. -/
abbrev S1 : Finset (DevRef τ sig) := {Proc.devRef .tc main_v1, Proc.devRef .tc main_v2}

theorem held_S1 (c : Dev nD) (Wv : Valuation τ sig (Elt F)) :
    (StableHlo.held (c : Thread nD τ) S1 Wv : sProp 𝕄)
      = iprop((((c : Thread nD τ).loc main_v1) ↦{fullShare} Wv (Proc.devRef .tc main_v1)) ∗ (((c : Thread nD τ).loc main_v2) ↦{fullShare} Wv (Proc.devRef .tc main_v2))) := by
  unfold StableHlo.held S1
  rw [bigSep_insert (by decide), bigSep_singleton]
  rfl

theorem hostOps1_S1 : ∀ op ∈ (hostOps1 : List (HloOp τ sig (Elt F))), op.bufs ⊆ S1 := by
  intro op hop
  simp only [hostOps1, List.mem_cons, List.mem_nil_iff, or_false] at hop
  subst hop
  rw [StableHlo.unary_bufs]

/-- What every unscoped buffer that is no array holds after the last line. -/
abbrev VT (c : Dev nD) (b : Ref sig .tc) : Buf (Elt F) ((c : Thread nD τ).loc b) := afterTail₀ cfgs (dats m) 0 (V0 m) [hostOps1] c b

theorem VT_eq (c : Dev nD) (b : Ref sig .tc) : VT m c b = StableHlo.after hostOps1 (Wexit m c) (Proc.devRef .tc b) := by
  unfold VT Pipeline.afterTail₀
  simp only [List.flatten_cons, List.flatten_nil, List.append_nil]

/-- A buffer the last line does not write and that is no array ends as the region found it. -/
theorem VT_kept (c : Dev nD) (b : Ref sig .tc) (hb : ∀ w, Pipeline.arrRef spec0 w ≠ b) (hw : b ≠ main_v2) : VT m c b = V m c b := by
  rw [VT_eq, StableHlo.after_of_forall_not_mem _ _ fun op hop => ?_]
  · exact Pipeline.withArrays_of_ne spec0 c _ _ b hb
  · simp only [hostOps1, List.mem_cons, List.mem_nil_iff, or_false] at hop
    subst hop
    simp only [StableHlo.unary_writes, Finset.mem_singleton]
    exact StableHlo.devRef_ne_of_ne hw

theorem Wexit_v1 (c : Dev nD) : Wexit m c (Proc.devRef .tc main_v1) = (dats m 0 c).arrAt 10 cfg0.N := withArrays_v1 c _ _
theorem Wexit_v2 (c : Dev nD) : Wexit m c (Proc.devRef .tc main_v2) = V m c main_v2 :=
  Pipeline.withArrays_of_ne spec0 c _ _ main_v2 (by decide)

/-- The two buffers at the region's exit, -/
theorem held_exit (c : Dev nD) :
    (StableHlo.held (c : Thread nD τ) S1 (Wexit m c) : sProp 𝕄)
      = iprop((((c : Thread nD τ).loc main_v1) ↦{fullShare} (dats m 0 c).arrAt 10 cfg0.N) ∗ (((c : Thread nD τ).loc main_v2) ↦{fullShare} V m c main_v2)) := by
  rw [held_S1, Wexit_v1, Wexit_v2]

/-- and after the last line: the kernel's result untouched, the program's result written. -/
theorem held_after (c : Dev nD) :
    (StableHlo.held (c : Thread nD τ) S1 (StableHlo.after hostOps1 (Wexit m c)) : sProp 𝕄)
      = iprop((((c : Thread nD τ).loc main_v1) ↦{fullShare} (dats m 0 c).arrAt 10 cfg0.N) ∗ (((c : Thread nD τ).loc main_v2) ↦{fullShare} VT m c main_v2)) := by
  rw [held_S1, StableHlo.after_of_forall_not_mem (b := Proc.devRef .tc main_v1) _ _ fun op hop => ?_, Wexit_v1, VT_eq]
  simp only [hostOps1, List.mem_cons, List.mem_nil_iff, or_false] at hop
  subst hop
  simp only [StableHlo.unary_writes, Finset.mem_singleton]
  exact StableHlo.devRef_ne_of_ne (by decide)

set_option backward.isDefEq.respectTransparency.types false in
/-- The last line, run from the region's exit: it reads the kernel's result and writes the program's. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (VT m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  rw [Pipeline.unscopedRestP_none, Pipeline.unscopedRestP_none, unscopedRest0_eq, unscopedRest0_eq, arrays_chain,
    VT_kept m c main_arg0 (by decide) (by decide), VT_kept m c main_arg6 (by decide) (by decide)]
  iintro ⟨Hk, Hb, ⟨A0, A1, A2, A3, A4, A5, A6, A7, A8, A9, A10⟩, ⟨Ha0, Ha6, Hv2⟩⟩
  rw [Pipeline.chain_cons, Pipeline.chain_nil]
  ihave Hw := (StableHlo.wp_seq (Variants.lift Variants.none) none Set.univ c S1 (fun _ => pure PUnit.unit) hostOps1 hostOps1_S1
    (fun op hop => (List.forall_iff_forall_mem.mp hostOps1_fresh) op hop) (Wexit m c)) $$ [Hb A10 Hv2]
  · rw [held_exit]
    isplitl [Hb]; · iexact Hb
    isplitl [A10]; · iexact A10
    iexact Hv2
  iapply Hw
  rw [held_after]
  iintro ⟨Hb, A10, Hv2⟩
  rw [wp_pure]
  imodintro
  iapply Hk
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [Ha0]; · iexact Ha0
  isplitl [Ha6]; · iexact Ha6
  iexact Hv2

/-! ## The run -/

theorem hin (c : Dev nD) :
    iprop((BI.emp : sProp 𝕄) ∗ Pipeline.prefHeld (Ix := Unit) (Name := ℕ) (U := UR sig nD τ) (Lvl := ℕ) Pipeline.Prefetch.none c (fun _ => fullShare.right) (fun k => k.elim0)
        ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl]
  unfold PhiS
  iintro ⟨-, -, H⟩; iexact H

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (31 + 1) from rfl, scopedRest0_eq]
  unfold PhiS
  simp only [sc0, sc1, sc2, owns_whole]
  iintro ⟨H0, H1, H2⟩
  isplitr; · iempintro
  isplitl [H0]; · iexists _; iexact H0
  isplitl [H1]; · iexists _; iexact H1
  iexact H2

set_option backward.isDefEq.respectTransparency.types false in
/-- From any memory with zero counters every weakly fair execution of @main terminates, every array of the pipeline
    ending at what the library computes from the proof data and every other unscoped buffer as the last line leaves it. -/
theorem run_main : θ_run defs (onTc (τ := τ) (main (F := F))) (s₀ m ρ) (Pipeline.FramePost cfgs (dats m) 0 (VT m)) := by
  classical
  exact Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => BI.emp) (Y := fun _ => BI.emp)
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (VT m c))
    (hX := fun c => by iintro H; isplitr; · iempintro
                       iexact H)
    (hin := hin m) (hout := hout m) (htail := htail m)
    (QY := fun c s => ∀ b ∈ Pipeline.restRefsP sig Pipeline.Prefetch.none spec0, s.mem ((c : Thread nD τ).loc b) = VT m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (VT m c) s')
      isplitl [HU] <;> iassumption)
    (hQ := fun s h c => ⟨(h c).1, fun b hb => (h c).2.2 b (by
      simp only [Pipeline.restRefsP]; exact Finset.mem_sdiff.mpr ⟨hb, by simp⟩)⟩)

/-! ## The frame: the argument arrays end as they began -/

theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, List.flatten_cons, List.flatten_nil, List.append_nil, List.cons_append, List.nil_append]
  after_results
theorem V_main_arg3 (c : Dev nD) : V m c main_arg3 = m ((c : Thread nD τ).loc main_arg3) := by
  dsimp only [V, V0]
  simp only [hostOps0, hostOps0_1, List.flatten_cons, List.flatten_nil, List.append_nil, List.cons_append, List.nil_append]
  after_results
theorem V_main_arg4 (c : Dev nD) : V m c main_arg4 = m ((c : Thread nD τ).loc main_arg4) := by
  dsimp only [V, V0]
  simp only [hostOps0, hostOps0_1, List.flatten_cons, List.flatten_nil, List.append_nil, List.cons_append, List.nil_append]
  after_results
theorem V_main_arg5 (c : Dev nD) : V m c main_arg5 = m ((c : Thread nD τ).loc main_arg5) := by
  dsimp only [V, V0]
  simp only [hostOps0, hostOps0_1, List.flatten_cons, List.flatten_nil, List.append_nil, List.cons_append, List.nil_append]
  after_results
theorem V_main_arg6 (c : Dev nD) : V m c main_arg6 = m ((c : Thread nD τ).loc main_arg6) := by
  dsimp only [V, V0]
  simp only [hostOps0, hostOps0_1, List.flatten_cons, List.flatten_nil, List.append_nil, List.cons_append, List.nil_append]
  after_results

/-- An argument array no window stages is a bypassing buffer the last line does not write. -/
theorem rest_main_arg0 : main_arg0 ∈ Pipeline.restRefs sig spec0 := Pipeline.mem_restRefs_of _ rfl (by decide)
theorem rest_main_arg6 : main_arg6 ∈ Pipeline.restRefs sig spec0 := Pipeline.mem_restRefs_of _ rfl (by decide)
theorem rest_main_v2 : main_v2 ∈ Pipeline.restRefs sig spec0 := Pipeline.mem_restRefs_of _ rfl (by decide)

/-- THE FRAME: every weakly fair execution of @main terminates without a fault, and the seven argument arrays end
    holding what they held at launch: the features and the bias bypass the region and the last line does not write them;
    the adjacency matrices and the three kernels are input arrays, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    ((h c).2 main_arg0 rest_main_arg0).trans ((VT_kept m c main_arg0 (by decide) (by decide)).trans (V_main_arg0 m c)),
    ((h c).1 2).trans (((dats m 0 c).arrAt_in 2 rfl _).trans ((A_eq m c 2).trans (V_main_arg1 m c))),
    ((h c).1 4).trans (((dats m 0 c).arrAt_in 4 rfl _).trans ((A_eq m c 4).trans (V_main_arg2 m c))),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c))),
    ((h c).1 8).trans (((dats m 0 c).arrAt_in 8 rfl _).trans ((A_eq m c 8).trans (V_main_arg5 m c))),
    ((h c).2 main_arg6 rest_main_arg6).trans ((VT_kept m c main_arg6 (by decide) (by decide)).trans (V_main_arg6 m c))⟩)
    (run_main m ρ)

end Cert.KernelIdeal.Hand

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.IdealPayloads.lean ====
import proofs.«111522_g38826504356516_cont_8to1_b_1379_24_alg».proof.Proof.Gen.KernelIdeal.Skeleton
import proofs.«111522_g38826504356516_cont_8to1_b_1379_24_alg».proof.Proof.LibPlainDot
import Idealize.ShloMosaic.PureOps.Ideal
import Idealize.ShloMosaic.PureOps.Ideal.Laws
import Idealize.ShloMosaic.Lib.Pipeline.Value
import Idealize.ShloMosaic.Lib.ValueIdx

/-!
  The body's arithmetic read at an index, over the extended reals.

  Each value the body stores is a pure function of the blocks it loaded. At an index (p, q) of a 256×128 block:
  the self term is the sum over f of x (p, f) · wₛ (f, q) plus the bias b (q); each of the four aggregation terms is the sum
  over 4096 positions k of a (p, k) · y (k, q), y one half of a stored product; the accumulator update adds; the clamp
  takes the maximum with the zero word. The stored products are, at (k, q), the sum over f of x (k, f) · w (f, q).
-/

noncomputable section

open scoped BigOperators

namespace Cert.KernelIdeal.Hand

open Idealize.ShloMosaic Idealize.ShloMosaic.ValueIdx Cert.KernelIdeal Cert.KernelIdeal.Gen

/-- The trailing coordinates of (0, k, q) are (k, q). -/
theorem tail_ix3 {n1 n2 : Nat} (k : Fin n1) (q : Fin n2) :
    (fun a : Fin 2 => (ix3 (n0 := 1) ⟨0, Nat.one_pos⟩ k q) a.succ) = ix2 k q :=
  funext fun a => Fin.ext (by match a with | ⟨0, _⟩ => rfl | ⟨1, _⟩ => rfl)

/-- A stored product at (0, k, q): the sum over f of x (k, f) · w (f, q). -/
theorem pay4_apply (x : Vec Ideal S8192x128 .f32) (w : Vec Ideal S128x128 .f32) (k : Fin 8192) (q : Fin 128) :
    k0_pay4 (F := Ideal) x w (ix3 ⟨0, Nat.one_pos⟩ k q) = ∑ f : Fin 128, x (ix2 k f) * w (ix2 f q) := by
  unfold k0_pay4 k0_pay3
  rw [shapeCast_self]
  refine (shapeCast_addUnit_apply ![8192, 128] _ _ (ix3 ⟨0, Nat.one_pos⟩ k q)).trans ?_
  rw [tail_ix3]
  exact PlainDot.matmul_zero_apply none x w k q

theorem pay5_apply (x : Vec Ideal S8192x128 .f32) (w : Vec Ideal S128x128 .f32) (k : Fin 8192) (q : Fin 128) :
    k0_pay5 (F := Ideal) x w (ix3 ⟨0, Nat.one_pos⟩ k q) = ∑ f : Fin 128, x (ix2 k f) * w (ix2 f q) := by
  unfold k0_pay5 k0_pay3
  rw [shapeCast_self]
  refine (shapeCast_addUnit_apply ![8192, 128] _ _ (ix3 ⟨0, Nat.one_pos⟩ k q)).trans ?_
  rw [tail_ix3]
  exact PlainDot.matmul_zero_apply none x w k q

/-- The self term with the bias at (p, q). -/
theorem pay6_apply (x : Vec Ideal S256x128 .f32) (w : Vec Ideal S128x128 .f32) (b : Vec Ideal S1x128 .f32) (p : Fin 256) (q : Fin 128) :
    k0_pay6 (F := Ideal) x w b (ix2 p q) = (∑ f : Fin 128, x (ix2 p f) * w (ix2 f q)) + b (ix2 ⟨0, Nat.one_pos⟩ q) := by
  unfold k0_pay6
  rw [shapeCast_self, shapeCast_self, shapeCast_self, addf_apply]
  refine congrArg₂ (· + ·) (PlainDot.matmul_zero_apply none x w p q) ?_
  exact broadcastTo_apply b _ (ix2 p q) (ix2 ⟨0, Nat.one_pos⟩ q) (fun a => match a with
    | ⟨0, _⟩ => by show 0 = if (1 : Nat) = 1 then 0 else _; rw [if_pos rfl]
    | ⟨1, _⟩ => by show q.val = if (128 : Nat) = 1 then 0 else q.val; rw [if_neg (by decide)])

/-- One half contraction at (p, q): the [1, 4096, 128] half read as a 4096×128 matrix. -/
theorem half_apply (a : Vec Ideal S256x4096 .f32) (y : Vec Ideal S1x4096x128 .f32) (p : Fin 256) (q : Fin 128) :
    matmul (F := Ideal) (φ₁ := .f32) (φ₂ := .f32) dot_S256x4096_S4096x128_S256x128_1_0_0_1_n_n none a
        (shapeCast S4096x128 y shapeCasts_S1x4096x128_S4096x128 : FVec Ideal S4096x128 .f32)
        (constant S256x128 .f32 0x00000000#32) (ix2 p q)
      = ∑ k : Fin 4096, a (ix2 p k) * y (ix3 ⟨0, Nat.one_pos⟩ k q) := by
  refine (PlainDot.matmul_zero_apply none a _ p q).trans (Finset.sum_congr rfl fun k _ => ?_)
  rw [shapeCast_dropUnit_apply ![4096, 128] y _ (ix2 k q)]
  exact congrArg (fun z => a (ix2 p k) * y z)
    (funext fun b => Fin.ext (by match b with | ⟨0, _⟩ => rfl | ⟨1, _⟩ => rfl | ⟨2, _⟩ => rfl))

/-- The four aggregation terms at (p, q), added left to right. -/
theorem pay7_apply (a0 : Vec Ideal S256x4096 .f32) (y0l : Vec Ideal S1x4096x128 .f32) (a0b : Vec Ideal S256x4096 .f32) (y0h : Vec Ideal S1x4096x128 .f32)
    (a1 : Vec Ideal S256x4096 .f32) (y1l : Vec Ideal S1x4096x128 .f32) (a1b : Vec Ideal S256x4096 .f32) (y1h : Vec Ideal S1x4096x128 .f32)
    (p : Fin 256) (q : Fin 128) :
    k0_pay7 (F := Ideal) a0 y0l a0b y0h a1 y1l a1b y1h (ix2 p q)
      = (((∑ k : Fin 4096, a0 (ix2 p k) * y0l (ix3 ⟨0, Nat.one_pos⟩ k q)) + ∑ k : Fin 4096, a0b (ix2 p k) * y0h (ix3 ⟨0, Nat.one_pos⟩ k q))
          + ∑ k : Fin 4096, a1 (ix2 p k) * y1l (ix3 ⟨0, Nat.one_pos⟩ k q)) + ∑ k : Fin 4096, a1b (ix2 p k) * y1h (ix3 ⟨0, Nat.one_pos⟩ k q) := by
  unfold k0_pay7
  simp only [addf_apply]
  rw [half_apply, half_apply, half_apply, half_apply]

/-- The accumulator update adds entry by entry. -/
theorem pay1_apply (v6 v29 : Vec Ideal S256x128 .f32) (i : S256x128.Idx) : k0_pay1 (F := Ideal) v6 v29 i = v6 i + v29 i := by
  unfold k0_pay1; rw [shapeCast_self]; rfl

/-- The clamp takes the maximum with the zero word. -/
theorem pay2_apply (v : Vec Ideal S256x128 .f32) (i : S256x128.Idx) :
    k0_pay2 (F := Ideal) v i = max (v i) (Scalar.ofBits (F := Ideal) .f32 0x00000000#32) := by
  unfold k0_pay2; rfl

end Cert.KernelIdeal.Hand

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.LibMatProd.lean ====
/-
  Matrices over the extended reals: the product, relu, strips of rows, and associativity for real entries.

  A matrix is a function of a rank-2 index. For A (a×k) and B (k×b) the product `mm A B` has entry (i, j) equal to
  the sum over l of A (i, l) · B (l, j); `relu A` replaces every entry by its maximum with 0.

  STRIPS. Row p of a product A · B depends only on row p of A, and relu acts entry by entry. So if `a` is the strip
  of `A` that starts at row o (row p of `a` is row o + p of `A`), then `mm a B` is the strip of `mm A B` that starts
  at row o, and `relu a` the strip of `relu A`. This is what lets a computation carried out strip by strip be read
  as rows of one whole-array formula.

  ASSOCIATIVITY. (A · X) · W = A · (X · W) moves a factor across a sum and exchanges two sums. On the extended reals
  the first step fails at the infinities, so the law is stated for matrices all of whose entries are real numbers,
  and proved by carrying both sides to the reals (a finite sum of real coercions is the coercion of the real sum:
  LibRealSums.lean, which this file imports).
-/
import Idealize.ShloMosaic.Lib.ValueIdx
import Idealize.ShloMosaic.PureOps.Ideal
import proofs.«111522_g38826504356516_cont_8to1_b_1379_24_alg».proof.Proof.LibRealSums

noncomputable section

open scoped BigOperators

namespace Cert.MatProd

open Idealize.ShloMosaic Idealize.ShloMosaic.ValueIdx

/-- An a×b matrix over the extended reals: a function of the rank-2 index. -/
abbrev Mat (a b : Nat) : Type := (⟨2, ![a, b]⟩ : Shape).Idx → EReal

/-- Every entry is a real number. -/
def IsReal {a b : Nat} (A : Mat a b) : Prop := ∀ i, ∃ r : ℝ, A i = (r : EReal)

/-- The matrix product: entry (i, j) is the sum over l of A (i, l) · B (l, j). -/
def mm {a k b : Nat} (A : Mat a k) (B : Mat k b) : Mat a b :=
  fun i => ∑ l : Fin k, A (ix2 (i 0) l) * B (ix2 l (i 1))

/-- Every entry replaced by its maximum with zero. -/
def relu {a b : Nat} (A : Mat a b) : Mat a b := fun i => max (A i) 0

/-- The product at the index built from coordinates p and q. -/
theorem mm_apply {a k b : Nat} (A : Mat a k) (B : Mat k b) (p : Fin a) (q : Fin b) :
    mm A B (ix2 p q) = ∑ l : Fin k, A (ix2 p l) * B (ix2 l q) := rfl

/-- `a` is the strip of `A` that starts at row `o`: row p of `a` is row o + p of `A`. -/
def StripOf {m n k : Nat} (a : Mat m k) (A : Mat n k) (o : Nat) (ho : ∀ p : Fin m, o + p.val < n) : Prop :=
  ∀ (p : Fin m) (l : Fin k), a (ix2 p l) = A (ix2 ⟨o + p.val, ho p⟩ l)

/-- The product of a strip with B is the same strip of the product. -/
theorem StripOf.mm {m n k b : Nat} {a : Mat m k} {A : Mat n k} {o : Nat} {ho : ∀ p : Fin m, o + p.val < n}
    (h : StripOf a A o ho) (B : Mat k b) : StripOf (MatProd.mm a B) (MatProd.mm A B) o ho := fun p q => by
  rw [mm_apply, mm_apply]
  exact Finset.sum_congr rfl fun l _ => by rw [h p l]

/-- The relu of a strip is the same strip of the relu. -/
theorem StripOf.relu {m n k : Nat} {a : Mat m k} {A : Mat n k} {o : Nat} {ho : ∀ p : Fin m, o + p.val < n}
    (h : StripOf a A o ho) : StripOf (MatProd.relu a) (MatProd.relu A) o ho := fun p l => by
  show max (a (ix2 p l)) 0 = max (A (ix2 ⟨o + p.val, ho p⟩ l)) 0
  rw [h p l]

/-- Associativity of the matrix product for matrices of real entries: both sides are, in the reals, the double
    sum over (p, j) of A (i, p) · X (p, j) · W (j, q). -/
theorem mm_assoc {a k l b : Nat} (A : Mat a k) (X : Mat k l) (W : Mat l b)
    (hA : IsReal A) (hX : IsReal X) (hW : IsReal W) : mm (mm A X) W = mm A (mm X W) := by
  choose fA hfA using hA
  choose fX hfX using hX
  choose fW hfW using hW
  obtain rfl : A = fun i => (fA i : EReal) := funext hfA
  obtain rfl : X = fun i => (fX i : EReal) := funext hfX
  obtain rfl : W = fun i => (fW i : EReal) := funext hfW
  funext i
  simp only [mm, ← EReal.coe_mul, Cert.RealSums.coe_finset_sum]
  refine congrArg _ ?_
  simp only [Finset.sum_mul, Finset.mul_sum]
  rw [Finset.sum_comm]
  exact Finset.sum_congr rfl fun p _ => Finset.sum_congr rfl fun j _ => mul_assoc _ _ _

end Cert.MatProd

end
-- ==== Proof.Rgcn.lean ====
/-
  The relational graph convolution on plain matrices over the extended reals, in two arrangements.

  With X the n×f feature matrix, A₀ and A₁ the n×n adjacency matrices, Wₛ, W₀, W₁ the f×u kernels and b the bias row,
  the layer is  max (X·Wₛ + (A₀·X)·W₀ + (A₁·X)·W₁ + b, z)  entry by entry (z the clamp's lower bound).

  THE FIRST ARRANGEMENT computes it as written: neighbours aggregated first, (A_r·X)·W_r, the bias added last.
  THE SECOND transforms the features first, Y_r = X·W_r, and then aggregates, A_r·Y_r — each contraction over the n
  columns of A_r taken as two halves, columns 0…n/2−1 and n/2…n−1 — and adds the bias to the self term first.

  The two agree when the entries are real numbers: (A·X)·W = A·(X·W) moves a factor across a sum, which on the
  extended reals needs finiteness (LibMatProd.lean); the two halves of a contraction add up to the whole contraction in
  any commutative monoid; and the rest is a regrouping of a sum of four terms.
-/
import Idealize.ShloMosaic.Lib.ValueIdx
import Idealize.ShloMosaic.PureOps.Ideal
import proofs.«111522_g38826504356516_cont_8to1_b_1379_24_alg».proof.Proof.LibMatProd

noncomputable section

open scoped BigOperators

namespace Cert.Rgcn

open Idealize.ShloMosaic Idealize.ShloMosaic.ValueIdx Cert.MatProd

/-- A sum over 8192 consecutive positions is the sum over the first 4096 plus the sum over the last 4096. -/
theorem sum_halves {α : Type} [AddCommMonoid α] (g : Fin 8192 → α) :
    ∑ k : Fin 8192, g k
      = (∑ k : Fin 4096, g ⟨k.val, by have := k.isLt; omega⟩) + ∑ k : Fin 4096, g ⟨4096 + k.val, by have := k.isLt; omega⟩ := by
  rw [← Equiv.sum_comp (finCongr (show 4096 + 4096 = 8192 from rfl)) g, Fin.sum_univ_add]
  rfl

/-- The contraction A · Y over the first half of A's columns, -/
def lo (A : Mat 8192 8192) (Y : Mat 8192 128) : Mat 8192 128 := fun i =>
  ∑ k : Fin 4096, A (ix2 (i 0) ⟨k.val, by have := k.isLt; omega⟩) * Y (ix2 ⟨k.val, by have := k.isLt; omega⟩ (i 1))

/-- and over the second half. -/
def hi (A : Mat 8192 8192) (Y : Mat 8192 128) : Mat 8192 128 := fun i =>
  ∑ k : Fin 4096, A (ix2 (i 0) ⟨4096 + k.val, by have := k.isLt; omega⟩) * Y (ix2 ⟨4096 + k.val, by have := k.isLt; omega⟩ (i 1))

/-- The two halves add up to the whole contraction. -/
theorem lo_add_hi (A : Mat 8192 8192) (Y : Mat 8192 128) (i : (⟨2, ![8192, 128]⟩ : Shape).Idx) :
    lo A Y i + hi A Y i = mm A Y i :=
  (sum_halves fun l => A (ix2 (i 0) l) * Y (ix2 l (i 1))).symm

/-- The layer as written: aggregate, then transform, the bias last. -/
def aggregateFirst (z : EReal) (X : Mat 8192 128) (A0 A1 : Mat 8192 8192) (Ws W0 W1 : Mat 128 128) (b : Fin 128 → EReal) :
    Mat 8192 128 := fun i =>
  max (((mm X Ws i + mm (mm A0 X) W0 i) + mm (mm A1 X) W1 i) + b (i 1)) z

/-- The layer with the features transformed first, each aggregation in two halves, the bias with the self term. -/
def transformFirst (z : EReal) (X : Mat 8192 128) (A0 A1 : Mat 8192 8192) (Ws W0 W1 : Mat 128 128) (b : Fin 128 → EReal) :
    Mat 8192 128 := fun i =>
  max ((mm X Ws i + b (i 1))
    + (((lo A0 (mm X W0) i + hi A0 (mm X W0) i) + lo A1 (mm X W1) i) + hi A1 (mm X W1) i)) z

/-- On real entries the two arrangements are one function. -/
theorem transformFirst_eq_aggregateFirst (z : EReal) (X : Mat 8192 128) (A0 A1 : Mat 8192 8192) (Ws W0 W1 : Mat 128 128)
    (b : Fin 128 → EReal) (hX : IsReal X) (hA0 : IsReal A0) (hA1 : IsReal A1) (hW0 : IsReal W0) (hW1 : IsReal W1) :
    transformFirst z X A0 A1 Ws W0 W1 b = aggregateFirst z X A0 A1 Ws W0 W1 b := by
  funext i
  unfold transformFirst aggregateFirst
  rw [mm_assoc A0 X W0 hA0 hX hW0, mm_assoc A1 X W1 hA1 hX hW1, lo_add_hi, add_assoc (mm A0 (mm X W0) i), lo_add_hi]
  congr 1
  abel

end Cert.Rgcn

end
-- ==== Proof.IdealValue.lean ====
/-
  The idealized kernel's result array as one function of the arrays the region finds.

  Through the body's arithmetic, the output block at grid point t is: the clamp at zero of the self term of row panel t
  with the bias, plus the four half contractions of the panel's adjacency halves with the halves of the two stored
  products. Each window's block is a literal rectangle of its array (the row panel starts at row 256 t; an adjacency
  panel's right half starts at column 4096), the stored products are X·W₀ and X·W₁, and the two half loads read rows
  0…4095 and 4096…8191 of a product. So the block is rows 256 t … 256 t + 255 of the layer with the features
  transformed first (Rgcn.lean), and since the 32 panels cover the result array, the array ends holding that function.
-/
import proofs.«111522_g38826504356516_cont_8to1_b_1379_24_alg».proof.Proof.IdealLaunch
import proofs.«111522_g38826504356516_cont_8to1_b_1379_24_alg».proof.Proof.IdealPayloads
import proofs.«111522_g38826504356516_cont_8to1_b_1379_24_alg».proof.Proof.Rgcn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

variable (m : (ℓ : Loc nD τ sig) → Buf (Elt Ideal) ℓ)

theorem hz2 : (![0, 0] : Fin 2 → Nat) = fun _ => 0 := by funext a; fin_cases a <;> rfl

/-! ## The offsets into the scratch arrays: with one column panel the panel index is zero -/

theorem off1_zero : ∀ t : Fin cfg0.N, k0_off1 (grid0.coords t) = fun _ => 0 :=
  fun t => (show k0_off1 (grid0.coords t) = ![0, 0, 0] from
    (by decide +kernel : ∀ t : Fin grid0.N, k0_off1 (grid0.coords t) = ![0, 0, 0]) t).trans (by funext a; fin_cases a <;> rfl)
theorem off2_eq : ∀ t : Fin cfg0.N, k0_off2 (grid0.coords t) = ![0, 0, 0] :=
  (by decide +kernel : ∀ t : Fin grid0.N, k0_off2 (grid0.coords t) = ![0, 0, 0])
theorem off3_eq : ∀ t : Fin cfg0.N, k0_off3 (grid0.coords t) = ![0, 4096, 0] :=
  (by decide +kernel : ∀ t : Fin grid0.N, k0_off3 (grid0.coords t) = ![0, 4096, 0])

/-! ## What the runs found, through the body's payloads -/

/-- What the first panel leaves in the first two scratch arrays: the products of the feature block with the two relation
    kernels' blocks. -/
theorem Y0_eq (c : Dev nD) : Y0 m c = k0_pay4 (iblk m c 0 t0) (iblk m c 7 t0) := by
  unfold Y0 firstRun runFirst
  dsimp only
  sl_unfold_words
  refine (View.canon_unit_zero (off1_zero t0) _ _).trans ?_
  simp only [View.readAt_eq_ld, Memref.IsWhole.read_unread, View.ld_unit_zero (S := S8192x128) hz2, View.ld_unit_zero (S := S128x128) hz2]

theorem Y1_eq (c : Dev nD) : Y1 m c = k0_pay5 (iblk m c 0 t0) (iblk m c 8 t0) := by
  unfold Y1 firstRun runFirst
  dsimp only
  sl_unfold_words
  refine (View.canon_unit_zero (off1_zero t0) _ _).trans ?_
  simp only [View.readAt_eq_ld, Memref.IsWhole.read_unread, View.ld_unit_zero (S := S8192x128) hz2, View.ld_unit_zero (S := S128x128) hz2]

/-- The first half of a stored product, as the body loads it, -/
abbrev rlo (t : Fin cfg0.N) : Rect S1x8192x128 := Rect.unit (k0_off2 (grid0.coords t)) S1x4096x128.size (k0_off2_inb (grid0.coords t))
/-- and the second half. -/
abbrev rhi (t : Fin cfg0.N) : Rect S1x8192x128 := Rect.unit (k0_off3 (grid0.coords t)) S1x4096x128.size (k0_off3_inb (grid0.coords t))

/-- What the body leaves in the output block at ANY point, from the point's blocks and the two stored products: the clamp
    of the accumulator, which is the self term with the bias plus the four half aggregations. -/
def outForm (c : Dev nD) (t : Fin cfg0.N) : Vec Ideal S256x128 .f32 :=
  k0_pay2 (k0_pay1 (k0_pay6 (iblk m c 1 t) (iblk m c 6 t) (iblk m c 9 t))
    (k0_pay7 (iblk m c 2 t) (View.ld (Y0 m c) (rlo t)) (iblk m c 3 t) (View.ld (Y0 m c) (rhi t))
      (iblk m c 4 t) (View.ld (Y1 m c) (rlo t)) (iblk m c 5 t) (View.ld (Y1 m c) (rhi t))))

theorem out10_first (c : Dev nD) : out10 m c t0 = outForm m c t0 := by
  unfold outForm
  rw [Y0_eq, Y1_eq]
  unfold out10; rw [dif_pos rfl]
  unfold runFirst
  dsimp only
  sl_unfold_words
  refine (View.canon_unit_zero hz2 _ _).trans ?_
  rw [View.readCov_cons_toLoadRect, View.readCov_cons_toLoadRect]
  simp only [View.readCov_eq_canon', View.readAt_eq_ld, Memref.IsWhole.read_unread,
    View.ld_unit_zero (S := S8192x128) hz2, View.ld_unit_zero (S := S128x128) hz2, View.ld_unit_zero (S := S256x128) hz2,
    View.ld_unit_zero (S := S256x4096) hz2, View.ld_unit_zero (S := S1x128) hz2]
  show k0_pay2 (k0_pay1 (k0_pay6 (iblk m c 1 t0) (iblk m c 6 t0) (iblk m c 9 t0))
      (k0_pay7 (iblk m c 2 t0) (fun j => View.canon [(⟨Rect.unit (k0_off1 (grid0.coords t0)) S1x8192x128.size (k0_off1_inb (grid0.coords t0) ((hcond1 t0).mpr rfl)), k0_pay4 (iblk m c 0 t0) (iblk m c 7 t0)⟩ : View.Piece (Elt Ideal) S1x8192x128 .f32)] ((rlo t0).idx j))
        (iblk m c 3 t0) (fun j => View.canon [(⟨Rect.unit (k0_off1 (grid0.coords t0)) S1x8192x128.size (k0_off1_inb (grid0.coords t0) ((hcond1 t0).mpr rfl)), k0_pay4 (iblk m c 0 t0) (iblk m c 7 t0)⟩ : View.Piece (Elt Ideal) S1x8192x128 .f32)] ((rhi t0).idx j))
        (iblk m c 4 t0) (fun j => View.canon [(⟨Rect.unit (k0_off1 (grid0.coords t0)) S1x8192x128.size (k0_off1_inb (grid0.coords t0) ((hcond1 t0).mpr rfl)), k0_pay5 (iblk m c 0 t0) (iblk m c 8 t0)⟩ : View.Piece (Elt Ideal) S1x8192x128 .f32)] ((rlo t0).idx j))
        (iblk m c 5 t0) (fun j => View.canon [(⟨Rect.unit (k0_off1 (grid0.coords t0)) S1x8192x128.size (k0_off1_inb (grid0.coords t0) ((hcond1 t0).mpr rfl)), k0_pay5 (iblk m c 0 t0) (iblk m c 8 t0)⟩ : View.Piece (Elt Ideal) S1x8192x128 .f32)] ((rhi t0).idx j)))) = _
  simp only [View.canon_unit_zero (S := S1x8192x128) (off1_zero t0)]
  rfl

theorem out10_later (c : Dev nD) (t : Fin cfg0.N) (h : ¬ t.val = 0) : out10 m c t = outForm m c t := by
  unfold outForm
  unfold out10; rw [dif_neg h]
  unfold runLater
  dsimp only
  sl_unfold_words
  refine (View.canon_unit_zero hz2 _ _).trans ?_
  rw [View.readCov_cons_toLoadRect, View.readCov_cons_toLoadRect]
  simp only [View.readAt_eq_ld, Memref.IsWhole.read_unread,
    View.ld_unit_zero (S := S8192x128) hz2, View.ld_unit_zero (S := S128x128) hz2, View.ld_unit_zero (S := S256x128) hz2,
    View.ld_unit_zero (S := S256x4096) hz2, View.ld_unit_zero (S := S1x128) hz2]
  show k0_pay2 (k0_pay1 (k0_pay6 (iblk m c 1 t) (iblk m c 6 t) (iblk m c 9 t))
      (k0_pay7 (iblk m c 2 t) (View.ld (sc0.view.read (Elt Ideal) ((Memref.isWhole_whole _ : sc0.IsWhole).unread (Y0 m c))) (rlo t))
        (iblk m c 3 t) (View.ld (sc0.view.read (Elt Ideal) ((Memref.isWhole_whole _ : sc0.IsWhole).unread (Y0 m c))) (rhi t))
        (iblk m c 4 t) (View.ld (sc1.view.read (Elt Ideal) ((Memref.isWhole_whole _ : sc1.IsWhole).unread (Y1 m c))) (rlo t))
        (iblk m c 5 t) (View.ld (sc1.view.read (Elt Ideal) ((Memref.isWhole_whole _ : sc1.IsWhole).unread (Y1 m c))) (rhi t)))) = _
  rw [Memref.IsWhole.read_unread, Memref.IsWhole.read_unread]

/-- The output block at every point. -/
theorem out10_eq (c : Dev nD) (t : Fin cfg0.N) : out10 m c t = outForm m c t := by
  by_cases h : t.val = 0
  · obtain rfl : t = t0 := Fin.ext h
    exact out10_first m c
  · exact out10_later m c t h

/-! ## The windows' blocks read at an index -/

/-- The printed index maps, decided once over the grid: the feature block and the small operands never move; the row
    panels move with the first grid coordinate; the two halves of an adjacency panel sit at column blocks 0 and 1. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 1
    ∧ win0_4.index t (0 : Fin 2) = t.val ∧ win0_4.index t (1 : Fin 2) = 0
    ∧ win0_5.index t (0 : Fin 2) = t.val ∧ win0_5.index t (1 : Fin 2) = 1
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem iblk_0 (c : Dev nD) (t : Fin cfg0.N) (p : Fin 8192) (f : Fin 128)
    (hr : p.val < 8192) (hc : f.val < 128) :
    iblk m c 0 t (ix2 p f) = V m c main_v0 (ix2 ⟨p.val, hr⟩ ⟨f.val, hc⟩) := by
  show V m c main_v0 (((cfg0.win 0).blk t).view.emb (ix2 p f)) = _
  refine congrArg (V m c main_v0) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_0.index t (0 : Fin 2) * 8192 + 1 * p.val = p.val; omega
  | ⟨1, _⟩ => show win0_0.index t (1 : Fin 2) * 128 + 1 * f.val = f.val; omega
theorem iblk_1 (c : Dev nD) (t : Fin cfg0.N) (p : Fin 256) (f : Fin 128)
    (hr : 256 * t.val + p.val < 8192) (hc : f.val < 128) :
    iblk m c 1 t (ix2 p f) = V m c main_v0 (ix2 ⟨256 * t.val + p.val, hr⟩ ⟨f.val, hc⟩) := by
  show V m c main_v0 (((cfg0.win 1).blk t).view.emb (ix2 p f)) = _
  refine congrArg (V m c main_v0) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_1.index t (0 : Fin 2) * 256 + 1 * p.val = 256 * t.val + p.val; omega
  | ⟨1, _⟩ => show win0_1.index t (1 : Fin 2) * 128 + 1 * f.val = f.val; omega
theorem iblk_2 (c : Dev nD) (t : Fin cfg0.N) (p : Fin 256) (f : Fin 4096)
    (hr : 256 * t.val + p.val < 8192) (hc : f.val < 8192) :
    iblk m c 2 t (ix2 p f) = V m c main_arg1 (ix2 ⟨256 * t.val + p.val, hr⟩ ⟨f.val, hc⟩) := by
  show V m c main_arg1 (((cfg0.win 2).blk t).view.emb (ix2 p f)) = _
  refine congrArg (V m c main_arg1) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_2.index t (0 : Fin 2) * 256 + 1 * p.val = 256 * t.val + p.val; omega
  | ⟨1, _⟩ => show win0_2.index t (1 : Fin 2) * 4096 + 1 * f.val = f.val; omega
theorem iblk_3 (c : Dev nD) (t : Fin cfg0.N) (p : Fin 256) (f : Fin 4096)
    (hr : 256 * t.val + p.val < 8192) (hc : 4096 + f.val < 8192) :
    iblk m c 3 t (ix2 p f) = V m c main_arg1 (ix2 ⟨256 * t.val + p.val, hr⟩ ⟨4096 + f.val, hc⟩) := by
  show V m c main_arg1 (((cfg0.win 3).blk t).view.emb (ix2 p f)) = _
  refine congrArg (V m c main_arg1) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_3.index t (0 : Fin 2) * 256 + 1 * p.val = 256 * t.val + p.val; omega
  | ⟨1, _⟩ => show win0_3.index t (1 : Fin 2) * 4096 + 1 * f.val = 4096 + f.val; omega
theorem iblk_4 (c : Dev nD) (t : Fin cfg0.N) (p : Fin 256) (f : Fin 4096)
    (hr : 256 * t.val + p.val < 8192) (hc : f.val < 8192) :
    iblk m c 4 t (ix2 p f) = V m c main_arg2 (ix2 ⟨256 * t.val + p.val, hr⟩ ⟨f.val, hc⟩) := by
  show V m c main_arg2 (((cfg0.win 4).blk t).view.emb (ix2 p f)) = _
  refine congrArg (V m c main_arg2) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_4.index t (0 : Fin 2) * 256 + 1 * p.val = 256 * t.val + p.val; omega
  | ⟨1, _⟩ => show win0_4.index t (1 : Fin 2) * 4096 + 1 * f.val = f.val; omega
theorem iblk_5 (c : Dev nD) (t : Fin cfg0.N) (p : Fin 256) (f : Fin 4096)
    (hr : 256 * t.val + p.val < 8192) (hc : 4096 + f.val < 8192) :
    iblk m c 5 t (ix2 p f) = V m c main_arg2 (ix2 ⟨256 * t.val + p.val, hr⟩ ⟨4096 + f.val, hc⟩) := by
  show V m c main_arg2 (((cfg0.win 5).blk t).view.emb (ix2 p f)) = _
  refine congrArg (V m c main_arg2) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_5.index t (0 : Fin 2) * 256 + 1 * p.val = 256 * t.val + p.val; omega
  | ⟨1, _⟩ => show win0_5.index t (1 : Fin 2) * 4096 + 1 * f.val = 4096 + f.val; omega
theorem iblk_6 (c : Dev nD) (t : Fin cfg0.N) (p : Fin 128) (f : Fin 128)
    (hr : p.val < 128) (hc : f.val < 128) :
    iblk m c 6 t (ix2 p f) = V m c main_arg3 (ix2 ⟨p.val, hr⟩ ⟨f.val, hc⟩) := by
  show V m c main_arg3 (((cfg0.win 6).blk t).view.emb (ix2 p f)) = _
  refine congrArg (V m c main_arg3) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_6.index t (0 : Fin 2) * 128 + 1 * p.val = p.val; omega
  | ⟨1, _⟩ => show win0_6.index t (1 : Fin 2) * 128 + 1 * f.val = f.val; omega
theorem iblk_7 (c : Dev nD) (t : Fin cfg0.N) (p : Fin 128) (f : Fin 128)
    (hr : p.val < 128) (hc : f.val < 128) :
    iblk m c 7 t (ix2 p f) = V m c main_arg4 (ix2 ⟨p.val, hr⟩ ⟨f.val, hc⟩) := by
  show V m c main_arg4 (((cfg0.win 7).blk t).view.emb (ix2 p f)) = _
  refine congrArg (V m c main_arg4) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_7.index t (0 : Fin 2) * 128 + 1 * p.val = p.val; omega
  | ⟨1, _⟩ => show win0_7.index t (1 : Fin 2) * 128 + 1 * f.val = f.val; omega
theorem iblk_8 (c : Dev nD) (t : Fin cfg0.N) (p : Fin 128) (f : Fin 128)
    (hr : p.val < 128) (hc : f.val < 128) :
    iblk m c 8 t (ix2 p f) = V m c main_arg5 (ix2 ⟨p.val, hr⟩ ⟨f.val, hc⟩) := by
  show V m c main_arg5 (((cfg0.win 8).blk t).view.emb (ix2 p f)) = _
  refine congrArg (V m c main_arg5) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_8.index t (0 : Fin 2) * 128 + 1 * p.val = p.val; omega
  | ⟨1, _⟩ => show win0_8.index t (1 : Fin 2) * 128 + 1 * f.val = f.val; omega
theorem iblk_9 (c : Dev nD) (t : Fin cfg0.N) (p : Fin 1) (f : Fin 128)
    (hr : p.val < 1) (hc : f.val < 128) :
    iblk m c 9 t (ix2 p f) = V m c main_call0_v0 (ix2 ⟨p.val, hr⟩ ⟨f.val, hc⟩) := by
  show V m c main_call0_v0 (((cfg0.win 9).blk t).view.emb (ix2 p f)) = _
  refine congrArg (V m c main_call0_v0) (funext fun a => Fin.ext ?_)
  have hN : t.val < 32 := lt_of_lt_of_eq t.isLt N_0
  obtain ⟨e00, e01, e10, e11, e20, e21, e30, e31, e40, e41, e50, e51, e60, e61, e70, e71, e80, e81, e90, e91, eA0, eA1⟩ := idx_facts t
  match a with
  | ⟨0, _⟩ => show win0_9.index t (0 : Fin 2) * 1 + 1 * p.val = p.val; omega
  | ⟨1, _⟩ => show win0_9.index t (1 : Fin 2) * 128 + 1 * f.val = f.val; omega

/-! ## The halves of a stored product, and the stored products as matrix products -/

/-- Loading the first half of a stored product reads its rows 0…4095, -/
theorem ld_lo (Y : Vec Ideal S1x8192x128 .f32) (t : Fin cfg0.N) (k : Fin 4096) (q : Fin 128) (hk : k.val < 8192) :
    View.ld Y (rlo t) (ix3 ⟨0, Nat.one_pos⟩ k q) = Y (ix3 ⟨0, Nat.one_pos⟩ ⟨k.val, hk⟩ q) := by
  show Y ((rlo t).idx (ix3 ⟨0, Nat.one_pos⟩ k q)) = _
  refine congrArg Y (funext fun a => Fin.ext ?_)
  have e := off2_eq t
  match a with
  | ⟨0, _⟩ => show k0_off2 (grid0.coords t) 0 + 1 * 0 = 0; rw [e]; rfl
  | ⟨1, _⟩ => show k0_off2 (grid0.coords t) 1 + 1 * k.val = k.val; rw [e]; show 0 + 1 * k.val = k.val; omega
  | ⟨2, _⟩ => show k0_off2 (grid0.coords t) 2 + 1 * q.val = q.val; rw [e]; show 0 + 1 * q.val = q.val; omega

/-- and the second half its rows 4096…8191. -/
theorem ld_hi (Y : Vec Ideal S1x8192x128 .f32) (t : Fin cfg0.N) (k : Fin 4096) (q : Fin 128) (hk : 4096 + k.val < 8192) :
    View.ld Y (rhi t) (ix3 ⟨0, Nat.one_pos⟩ k q) = Y (ix3 ⟨0, Nat.one_pos⟩ ⟨4096 + k.val, hk⟩ q) := by
  show Y ((rhi t).idx (ix3 ⟨0, Nat.one_pos⟩ k q)) = _
  refine congrArg Y (funext fun a => Fin.ext ?_)
  have e := off3_eq t
  match a with
  | ⟨0, _⟩ => show k0_off3 (grid0.coords t) 0 + 1 * 0 = 0; rw [e]; rfl
  | ⟨1, _⟩ => show k0_off3 (grid0.coords t) 1 + 1 * k.val = 4096 + k.val; rw [e]; show 4096 + 1 * k.val = 4096 + k.val; omega
  | ⟨2, _⟩ => show k0_off3 (grid0.coords t) 2 + 1 * q.val = q.val; rw [e]; show 0 + 1 * q.val = q.val; omega

/-- The arrays as the region finds them, as plain matrices. -/
abbrev Xm (c : Dev nD) : Cert.MatProd.Mat 8192 128 := fun i => V m c main_v0 i
abbrev A0m (c : Dev nD) : Cert.MatProd.Mat 8192 8192 := fun i => V m c main_arg1 i
abbrev A1m (c : Dev nD) : Cert.MatProd.Mat 8192 8192 := fun i => V m c main_arg2 i
abbrev Wsm (c : Dev nD) : Cert.MatProd.Mat 128 128 := fun i => V m c main_arg3 i
abbrev W0m (c : Dev nD) : Cert.MatProd.Mat 128 128 := fun i => V m c main_arg4 i
abbrev W1m (c : Dev nD) : Cert.MatProd.Mat 128 128 := fun i => V m c main_arg5 i
abbrev bm (c : Dev nD) : Fin 128 → EReal := fun q => V m c main_call0_v0 (ix2 ⟨0, Nat.one_pos⟩ q)

/-- The first stored product is X · W₀, -/
theorem Y0_apply (c : Dev nD) (k : Fin 8192) (q : Fin 128) :
    Y0 m c (ix3 ⟨0, Nat.one_pos⟩ k q) = Cert.MatProd.mm (Xm m c) (W0m m c) (ix2 k q) := by
  rw [Y0_eq, pay4_apply, Cert.MatProd.mm_apply]
  exact Finset.sum_congr rfl fun f _ => by rw [iblk_0 m c t0 k f k.isLt f.isLt, iblk_7 m c t0 f q f.isLt q.isLt]

/-- the second X · W₁. -/
theorem Y1_apply (c : Dev nD) (k : Fin 8192) (q : Fin 128) :
    Y1 m c (ix3 ⟨0, Nat.one_pos⟩ k q) = Cert.MatProd.mm (Xm m c) (W1m m c) (ix2 k q) := by
  rw [Y1_eq, pay5_apply, Cert.MatProd.mm_apply]
  exact Finset.sum_congr rfl fun f _ => by rw [iblk_0 m c t0 k f k.isLt f.isLt, iblk_8 m c t0 f q f.isLt q.isLt]

/-! ## The output array as one function of the arrays the region finds -/

/-- The zero word of the clamp. -/
abbrev zw : EReal := Scalar.ofBits (F := Ideal) .f32 0x00000000#32

/-- The layer with the features transformed first, of the arrays as the region finds them. -/
def Gk (c : Dev nD) : Cert.MatProd.Mat 8192 128 :=
  Cert.Rgcn.transformFirst zw (Xm m c) (A0m m c) (A1m m c) (Wsm m c) (W0m m c) (W1m m c) (bm m c)

/-- WHAT POINT `t` WRITES BACK is rows 256 t … 256 t + 255 of that function. -/
theorem flushed_eq (c : Dev nD) (t : Fin cfg0.N) :
    (dats m 0 c).flushed 10 t = ((cfg0.win 10).blk t).view.read (Elt Ideal) (Gk m c) := by
  show (cfg0.win 10).cut (grid0.coords t) ((dats m 0 c).after 10 t) = _
  rw [after_10, out10_eq]
  funext y
  obtain ⟨p, q, rfl⟩ : ∃ (p : Fin 256) (q : Fin 128), y = ix2 p q := ⟨y 0, y 1, eq_ix2 y⟩
  have hN : t.val < 32 := lt_of_lt_of_eq t.isLt N_0
  have hp : p.val < 256 := p.isLt
  have hr : 256 * t.val + p.val < 8192 := by omega
  obtain ⟨e00, e01, e10, e11, e20, e21, e30, e31, e40, e41, e50, e51, e60, e61, e70, e71, e80, e81, e90, e91, eA0, eA1⟩ := idx_facts t
  have hemb : ((cfg0.win 10).blk t).view.emb (ix2 p q) = ix2 ⟨256 * t.val + p.val, hr⟩ q := by
    funext a; apply Fin.ext
    match a with
    | ⟨0, _⟩ => show win0_10.index t (0 : Fin 2) * 256 + 1 * p.val = 256 * t.val + p.val; omega
    | ⟨1, _⟩ => show win0_10.index t (1 : Fin 2) * 128 + 1 * q.val = q.val; omega
  show outForm m c t (ix2 p q) = Gk m c (((cfg0.win 10).blk t).view.emb (ix2 p q))
  rw [hemb]
  unfold outForm Gk Cert.Rgcn.transformFirst
  rw [pay2_apply, pay1_apply, pay6_apply, pay7_apply]
  refine congrArg (fun z => max z zw) (congrArg₂ (· + ·) (congrArg₂ (· + ·) ?_ ?_)
    (congrArg₂ (· + ·) (congrArg₂ (· + ·) (congrArg₂ (· + ·) ?_ ?_) ?_) ?_))
  · rw [Cert.MatProd.mm_apply]
    exact Finset.sum_congr rfl fun f _ => by rw [iblk_1 m c t p f hr f.isLt, iblk_6 m c t f q f.isLt q.isLt]
  · exact iblk_9 m c t ⟨0, Nat.one_pos⟩ q Nat.one_pos q.isLt
  · unfold Cert.Rgcn.lo
    exact Finset.sum_congr rfl fun k _ => by
      rw [iblk_2 m c t p k hr (by have := k.isLt; omega), ld_lo (Y0 m c) t k q (by have := k.isLt; omega), Y0_apply]
  · unfold Cert.Rgcn.hi
    exact Finset.sum_congr rfl fun k _ => by
      rw [iblk_3 m c t p k hr (by have := k.isLt; omega), ld_hi (Y0 m c) t k q (by have := k.isLt; omega), Y0_apply]
  · unfold Cert.Rgcn.lo
    exact Finset.sum_congr rfl fun k _ => by
      rw [iblk_4 m c t p k hr (by have := k.isLt; omega), ld_lo (Y1 m c) t k q (by have := k.isLt; omega), Y1_apply]
  · unfold Cert.Rgcn.hi
    exact Finset.sum_congr rfl fun k _ => by
      rw [iblk_5 m c t p k hr (by have := k.isLt; omega), ld_hi (Y1 m c) t k q (by have := k.isLt; omega), Y1_apply]

/-- An index of the result array is in point `t`'s block iff its row is in the block's range. -/
theorem mem_blk10 (t : Fin cfg0.N) (i : S8192x128.Idx) :
    i ∈ ((cfg0.win 10).blk t).view.set ↔ ∀ a : Fin 2, win0_10.index t a * S256x128.size a ≤ (i a).val ∧ (i a).val < win0_10.index t a * S256x128.size a + S256x128.size a := by
  show i ∈ ((View.whole main_v1).slice (win0_10.rect t)).set ↔ _
  rw [View.set_slice_whole, Rect.mem_set_unit]
  exact Iff.rfl

/-- The 32 row panels cover the result array: row r is in panel r / 256. -/
theorem cover10 (i : S8192x128.Idx) : ∃ t : Fin cfg0.N, (cfg0.win 10).flush t = true ∧ i ∈ ((cfg0.win 10).blk t).view.set := by
  have hi0 : (i 0).val < 8192 := (i 0).isLt
  have hi1 : (i 1).val < 128 := (i 1).isLt
  refine ⟨⟨(i 0).val / 256, lt_of_lt_of_eq (by omega : (i 0).val / 256 < 32) N_0.symm⟩, flush0_10 _, ?_⟩
  rw [mem_blk10]
  obtain ⟨e00, e01, e10, e11, e20, e21, e30, e31, e40, e41, e50, e51, e60, e61, e70, e71, e80, e81, e90, e91, eA0, eA1⟩ :=
    idx_facts ⟨(i 0).val / 256, lt_of_lt_of_eq (by omega : (i 0).val / 256 < 32) N_0.symm⟩
  intro a
  match a with
  | ⟨0, _⟩ => show win0_10.index _ (0 : Fin 2) * 256 ≤ (i 0).val ∧ (i 0).val < win0_10.index _ (0 : Fin 2) * 256 + 256; rw [eA0]; show (i 0).val / 256 * 256 ≤ (i 0).val ∧ (i 0).val < (i 0).val / 256 * 256 + 256; omega
  | ⟨1, _⟩ => show win0_10.index _ (1 : Fin 2) * 128 ≤ (i 1).val ∧ (i 1).val < win0_10.index _ (1 : Fin 2) * 128 + 128; rw [eA1]; omega

/-- THE RESULT ARRAY after the run is the layer of the arrays the region found. -/
theorem final10 (c : Dev nD) : (dats m 0 c).arrAt 10 cfg0.N = Gk m c :=
  (dats m 0 c).arrAt_eq_of_cover 10 (Gk m c) (fun t _ => flushed_eq m c t) cover10

end Cert.KernelIdeal.Hand
end
-- ==== Proof.RefValue.lean ====
import proofs.«111522_g38826504356516_cont_8to1_b_1379_24_alg».proof.Proof.Gen.ReferenceIdeal.Read
import proofs.«111522_g38826504356516_cont_8to1_b_1379_24_alg».proof.Proof.Rgcn

/-!
  The reference's result, before its last broadcast, is the layer as written.

  Read one operation at a time, entry (r, q) of the reference's clamped sum is
  max (((Σ_f X(r,f)·Wₛ(f,q) + Σ_f (Σ_k A₀(r,k)·X(k,f))·W₀(f,q)) + Σ_f (Σ_k A₁(r,k)·X(k,f))·W₁(f,q)) + b(q), z),
  X the features viewed as a matrix, z the zero word: the first arrangement of Rgcn.lean.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operand indices of the five products, as coordinates -/

theorem l1 (r : Fin 8192) (q : Fin 128) (k : Fin 128) : lidx_main_v1 (ix2 r q) k = ix2 r k :=
  funext fun a => Fin.ext (by match a with | ⟨0, _⟩ => rfl | ⟨1, _⟩ => rfl)
theorem r1 (r : Fin 8192) (q : Fin 128) (k : Fin 128) : ridx_main_v1 (ix2 r q) k = ix2 k q :=
  funext fun a => Fin.ext (by match a with | ⟨0, _⟩ => rfl | ⟨1, _⟩ => rfl)
theorem l2 (r : Fin 8192) (q : Fin 128) (k : Fin 8192) : lidx_main_v2 (ix2 r q) k = ix2 r k :=
  funext fun a => Fin.ext (by match a with | ⟨0, _⟩ => rfl | ⟨1, _⟩ => rfl)
theorem r2 (r : Fin 8192) (q : Fin 128) (k : Fin 8192) : ridx_main_v2 (ix2 r q) k = ix2 k q :=
  funext fun a => Fin.ext (by match a with | ⟨0, _⟩ => rfl | ⟨1, _⟩ => rfl)
theorem l3 (r : Fin 8192) (q : Fin 128) (k : Fin 128) : lidx_main_v3 (ix2 r q) k = ix2 r k :=
  funext fun a => Fin.ext (by match a with | ⟨0, _⟩ => rfl | ⟨1, _⟩ => rfl)
theorem r3 (r : Fin 8192) (q : Fin 128) (k : Fin 128) : ridx_main_v3 (ix2 r q) k = ix2 k q :=
  funext fun a => Fin.ext (by match a with | ⟨0, _⟩ => rfl | ⟨1, _⟩ => rfl)
theorem l5 (r : Fin 8192) (q : Fin 128) (k : Fin 8192) : lidx_main_v5 (ix2 r q) k = ix2 r k :=
  funext fun a => Fin.ext (by match a with | ⟨0, _⟩ => rfl | ⟨1, _⟩ => rfl)
theorem r5 (r : Fin 8192) (q : Fin 128) (k : Fin 8192) : ridx_main_v5 (ix2 r q) k = ix2 k q :=
  funext fun a => Fin.ext (by match a with | ⟨0, _⟩ => rfl | ⟨1, _⟩ => rfl)
theorem l6 (r : Fin 8192) (q : Fin 128) (k : Fin 128) : lidx_main_v6 (ix2 r q) k = ix2 r k :=
  funext fun a => Fin.ext (by match a with | ⟨0, _⟩ => rfl | ⟨1, _⟩ => rfl)
theorem r6 (r : Fin 8192) (q : Fin 128) (k : Fin 128) : ridx_main_v6 (ix2 r q) k = ix2 k q :=
  funext fun a => Fin.ext (by match a with | ⟨0, _⟩ => rfl | ⟨1, _⟩ => rfl)

/-- The bias entry the two broadcasts read at (r, q) is entry q. -/
theorem idx89 (r : Fin 8192) (q : Fin 128) : idx_main_v8 (idx_main_v9 (ix2 r q)) = ix1 q :=
  funext fun a => Fin.ext (by match a with | ⟨0, _⟩ => rfl)

/-- The zero word of the clamp. -/
abbrev zw : EReal := FloatOps.ofBits (F := Ideal) .f32 0x00000000#32

/-- The reference's clamped sum is the layer with the neighbours aggregated first. -/
theorem ref_eq (x0 : (⟨S1x8192x128, .f32⟩ : BufTy).Contents (Elt Ideal)) (x1 x2 : (⟨S8192x8192, .f32⟩ : BufTy).Contents (Elt Ideal))
    (x3 x4 x5 : (⟨S128x128, .f32⟩ : BufTy).Contents (Elt Ideal)) (x6 : (⟨S128, .f32⟩ : BufTy).Contents (Elt Ideal)) :
    val_main_v11 (F := Ideal) x0 x1 x2 x3 x4 x5 x6
      = Cert.Rgcn.aggregateFirst zw (fun i => val_main_v0 (F := Ideal) x0 i) (fun i => x1 i) (fun i => x2 i) (fun i => x3 i)
          (fun i => x4 i) (fun i => x5 i) (fun q => x6 (ix1 q)) := by
  funext i
  obtain ⟨r, q, rfl⟩ : ∃ (r : Fin 8192) (q : Fin 128), i = ix2 r q := ⟨i 0, i 1, eq_ix2 i⟩
  rw [val_main_v11_apply, val_main_v10_apply, val_main_v7_apply, val_main_v4_apply, val_main_v1_apply, val_main_v3_apply,
    val_main_v6_apply, val_main_v9_apply, val_main_v8_apply, val_main_call0_v0_apply, val_main_call0_cst_apply]
  simp only [val_main_v2_apply, val_main_v5_apply, l1, r1, l2, r2, l3, r3, l5, r5, l6, r6]
  rw [idx89]
  unfold Cert.Rgcn.aggregateFirst
  simp only [Cert.MatProd.mm_apply]
  rfl

end Cert.ReferenceIdeal.RefValue

end
-- ==== Proof.Finite.lean ====
import proofs.«111522_g38826504356516_cont_8to1_b_1379_24_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

/-!
  The precondition read: every entry of every input is a real number.

  The precondition is the conjunction, over the seven inputs, of "every entry's absolute value is below +∞". On the
  extended reals |x| = max x (−x) is below +∞ exactly when x is neither infinity, that is, when x is a real number.
-/

noncomputable section

namespace Cert.Finite

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt (x : EReal) (h : max x (-x) < (⊤ : EReal)) : ∃ r : ℝ, x = (r : EReal) := by
  induction x using EReal.rec with
  | bot => simp at h
  | top => simp at h
  | coe r => exact ⟨r, rfl⟩

/-- The f32 word 0x7F800000 is +∞. -/
theorem inf_word : Ideal.ofBits .f32 0x7F800000#32 = (⊤ : EReal) := by simp [Ideal.ofBits, Ideal.ieee]

/-- One entry's test, read: the comparison bit is 1 only for a real entry. -/
theorem real_of_test (x top : EReal) (htop : top = ⊤)
    (h : FloatOps.cmpf (F := Ideal) (φ := .f32) .olt (FloatOps.hostAbsf (F := Ideal) (φ := .f32) x) top = 1#1) : ∃ r : ℝ, x = (r : EReal) := by
  subst htop
  have h' : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  exact real_of_abs_lt x h'

variable [Facts]
open Facts

/-- The seven conjuncts of the precondition, each an all-reduce of its array's entry tests. -/
theorem conjuncts (a0 : FVec Ideal S1x8192x128 .f32) (a1 a2 : FVec Ideal S8192x8192 .f32) (a3 a4 a5 : FVec Ideal S128x128 .f32)
    (a6 : FVec Ideal S128 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h := congrFun h ix0
  dsimp only [fn, fn_part1] at h
  obtain ⟨h', h6⟩ := IntOp.andi_eq_one.mp h
  obtain ⟨h', h5⟩ := IntOp.andi_eq_one.mp h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨fun i => real_of_test (a0 i) _ inf_word (Host.reduce_andi_all _ _ _ _ ix0 h0 i),
    fun i => real_of_test (a1 i) _ inf_word (Host.reduce_andi_all _ _ _ _ ix0 h1 i),
    fun i => real_of_test (a2 i) _ inf_word (Host.reduce_andi_all _ _ _ _ ix0 h2 i),
    fun i => real_of_test (a3 i) _ inf_word (Host.reduce_andi_all _ _ _ _ ix0 h3 i),
    fun i => real_of_test (a4 i) _ inf_word (Host.reduce_andi_all _ _ _ _ ix0 h4 i),
    fun i => real_of_test (a5 i) _ inf_word (Host.reduce_andi_all _ _ _ _ ix0 h5 i),
    fun i => real_of_test (a6 i) _ inf_word (Host.reduce_andi_all _ _ _ _ ix0 h6 i)⟩

end Cert.Finite

end
-- ==== Proof.Bridge.lean ====
/-
  The kernel's result against the reference's, over the extended reals.

  The arrays the region finds are the arguments — the features reshaped to a matrix, the bias to a row — and under the
  precondition all their entries are real numbers. On real entries the layer with the features transformed first is the
  layer as written (associativity of the matrix product; a contraction as the sum of its two halves), and the layer as
  written of the arguments is what the reference's operations compute before its last broadcast. The kernel's last line
  is the same broadcast of its result array.
-/
import proofs.«111522_g38826504356516_cont_8to1_b_1379_24_alg».proof.Proof.IdealValue
import proofs.«111522_g38826504356516_cont_8to1_b_1379_24_alg».proof.Proof.RefValue
import proofs.«111522_g38826504356516_cont_8to1_b_1379_24_alg».proof.Proof.Finite
import proofs.«111522_g38826504356516_cont_8to1_b_1379_24_alg».proof.Proof.Gen.ReferenceIdeal.Run
import proofs.«111522_g38826504356516_cont_8to1_b_1379_24_alg».proof.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! ## The arrays the region finds, from the arguments -/

/-- The feature matrix the region finds is the features viewed as a matrix, -/
theorem V_main_v0 (c : Dev nD) :
    V m c main_v0 = shapeCast S8192x128 (m ((c : Thread nD τ).loc main_arg0)) shapeCasts_S1x8192x128_S8192x128 := by
  dsimp only [V, V0]
  simp only [hostOps0, hostOps0_1, List.flatten_cons, List.flatten_nil, List.append_nil, List.cons_append, List.nil_append]
  after_results
  rfl

/-- and the bias row the bias viewed as one row. -/
theorem V_main_call0_v0 (c : Dev nD) :
    V m c main_call0_v0 = shapeCast S1x128 (m ((c : Thread nD τ).loc main_arg6)) shapeCasts_S128_S1x128 := by
  dsimp only [V, V0]
  simp only [hostOps0, hostOps0_1, List.flatten_cons, List.flatten_nil, List.append_nil, List.cons_append, List.nil_append]
  after_results
  rfl

/-- Entry q of the bias row is entry q of the bias. -/
theorem bm_apply (c : Dev nD) (q : Fin 128) : bm m c q = m ((c : Thread nD τ).loc main_arg6) (ix1 q) := by
  show V m c main_call0_v0 (ix2 ⟨0, Nat.one_pos⟩ q) = _
  rw [V_main_call0_v0]
  exact shapeCast_apply _ shapeCasts_S128_S1x128 (ix2 ⟨0, Nat.one_pos⟩ q) (ix1 q)
    (by rw [Shape.rowMajor_val_one, Shape.rowMajor_val_two]; show q.val = 0 * 128 + q.val; omega)

/-- The program's result after the last line: the result array, broadcast. -/
theorem VT_main_v2 (c : Dev nD) :
    VT m c main_v2 = broadcastInDim S1x8192x128 ![1, 2] bcast_S8192x128_S1x8192x128_1_2 ((dats m 0 c).arrAt 10 cfg0.N) := by
  rw [VT_eq]
  dsimp only [hostOps1]
  after_results
  rw [Wexit_v1]

/-! ## Under the precondition every matrix has real entries -/

section Reals
variable [hF : Cert.Pre_finite_inputs.Facts] (hpre : Cert.Pre_KernelIdeal m)
include hpre

theorem real_X (c : Dev nD) : Cert.MatProd.IsReal (Xm m c) := fun i => by
  show ∃ r : ℝ, V m c main_v0 i = (r : EReal)
  rw [V_main_v0]
  unfold shapeCast
  exact (Cert.Finite.conjuncts _ _ _ _ _ _ _ (hpre c)).1 _
theorem real_A0 (c : Dev nD) : Cert.MatProd.IsReal (A0m m c) := fun i => by
  show ∃ r : ℝ, V m c main_arg1 i = (r : EReal)
  rw [V_main_arg1]; exact (Cert.Finite.conjuncts _ _ _ _ _ _ _ (hpre c)).2.1 i
theorem real_A1 (c : Dev nD) : Cert.MatProd.IsReal (A1m m c) := fun i => by
  show ∃ r : ℝ, V m c main_arg2 i = (r : EReal)
  rw [V_main_arg2]; exact (Cert.Finite.conjuncts _ _ _ _ _ _ _ (hpre c)).2.2.1 i
theorem real_W0 (c : Dev nD) : Cert.MatProd.IsReal (W0m m c) := fun i => by
  show ∃ r : ℝ, V m c main_arg4 i = (r : EReal)
  rw [V_main_arg4]; exact (Cert.Finite.conjuncts _ _ _ _ _ _ _ (hpre c)).2.2.2.2.1 i
theorem real_W1 (c : Dev nD) : Cert.MatProd.IsReal (W1m m c) := fun i => by
  show ∃ r : ℝ, V m c main_arg5 i = (r : EReal)
  rw [V_main_arg5]; exact (Cert.Finite.conjuncts _ _ _ _ _ _ _ (hpre c)).2.2.2.2.2.1 i

/-- THE BRIDGE: the kernel's result array is the layer as the reference writes it, of the argument arrays. On real
    entries the two arrangements agree; the arrays the region finds are the arguments, the features reshaped. -/
theorem Gk_eq (c : Dev nD) :
    Gk m c = Cert.ReferenceIdeal.Read.val_main_v11 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [Cert.ReferenceIdeal.RefValue.ref_eq]
  unfold Gk
  rw [Cert.Rgcn.transformFirst_eq_aggregateFirst _ _ _ _ _ _ _ _ (real_X m hpre c) (real_A0 m hpre c) (real_A1 m hpre c)
    (real_W0 m hpre c) (real_W1 m hpre c)]
  have eX : Xm m c = fun i => Cert.ReferenceIdeal.Read.val_main_v0 (F := Ideal) (m ((c : Thread nD τ).loc main_arg0)) i := by
    funext i; show V m c main_v0 i = _; rw [V_main_v0]; rfl
  have e1 : A0m m c = fun i => m ((c : Thread nD τ).loc main_arg1) i := by funext i; show V m c main_arg1 i = _; rw [V_main_arg1]
  have e2 : A1m m c = fun i => m ((c : Thread nD τ).loc main_arg2) i := by funext i; show V m c main_arg2 i = _; rw [V_main_arg2]
  have e3 : Wsm m c = fun i => m ((c : Thread nD τ).loc main_arg3) i := by funext i; show V m c main_arg3 i = _; rw [V_main_arg3]
  have e4 : W0m m c = fun i => m ((c : Thread nD τ).loc main_arg4) i := by funext i; show V m c main_arg4 i = _; rw [V_main_arg4]
  have e5 : W1m m c = fun i => m ((c : Thread nD τ).loc main_arg5) i := by funext i; show V m c main_arg5 i = _; rw [V_main_arg5]
  have e6 : bm m c = fun q => m ((c : Thread nD τ).loc main_arg6) (ix1 q) := funext fun q => bm_apply m c q
  rw [eX, e1, e2, e3, e4, e5, e6]
  rfl

end Reals

/-! ## The kernel's run, read -/

/-- Every weakly fair execution of the idealized kernel terminates with the program's result at the broadcast of the
    result array and the argument arrays as they were. -/
theorem kernel_run : θ_run defs (onTc (τ := τ) (main (F := Ideal))) ⟨m, fun _ => 0, ρ⟩ (fun r => ∀ c : Dev nD,
      r.2.mem ((c.tc : Thread nD τ).loc main_v2) = broadcastInDim S1x8192x128 ![1, 2] bcast_S8192x128_S1x8192x128_1_2 (Gk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    ((h c).2 main_v2 rest_main_v2).trans ((VT_main_v2 m c).trans (by rw [final10])),
    ((h c).2 main_arg0 rest_main_arg0).trans ((VT_kept m c main_arg0 (by decide) (by decide)).trans (V_main_arg0 m c)),
    ((h c).1 2).trans (((dats m 0 c).arrAt_in 2 rfl _).trans ((A_eq m c 2).trans (V_main_arg1 m c))),
    ((h c).1 4).trans (((dats m 0 c).arrAt_in 4 rfl _).trans ((A_eq m c 4).trans (V_main_arg2 m c))),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c))),
    ((h c).1 8).trans (((dats m 0 c).arrAt_in 8 rfl _).trans ((A_eq m c 8).trans (V_main_arg5 m c))),
    ((h c).2 main_arg6 rest_main_arg6).trans ((VT_kept m c main_arg6 (by decide) (by decide)).trans (V_main_arg6 m c))⟩)
    (run_main m ρ)

end Cert.KernelIdeal.Hand

end
-- ==== Proof.lean ====
/-
  A relational graph convolution layer, out = max (X·Wₛ + (A₀·X)·W₀ + (A₁·X)·W₁ + b, 0), with X the 8192×128 feature
  matrix, A₀ and A₁ dense 8192×8192 adjacency matrices, Wₛ, W₀, W₁ 128×128 kernels and b a bias row: the reference
  computes it as written; the kernel reassociates, (A_r·X)·W_r = A_r·(X·W_r).

  THE KERNEL works on a grid of 32 row panels of 256 rows. At the first panel it forms the two products Y_r = X·W_r from
  the whole feature matrix and keeps them in two scratch arrays; at every panel it sets an accumulator to the panel's
  self term X·Wₛ plus the bias, adds the four half contractions A_r[:, :4096]·Y_r[:4096] and A_r[:, 4096:]·Y_r[4096:]
  (each adjacency panel arrives as two windows on the one array, its left and right halves), and writes the
  accumulator clamped below at zero into its 256 rows of the result. The feature matrix too is read through two
  windows: whole, for the products, and by row panel, for the self term.

  THE FRAMES (the word-level kernel and its idealization, the same text). The run of the region is proved against the
  launch rule for windows that may share an array: each array two windows read is held by them at one half share each,
  split at the region's entry and read back at its exit. What the region keeps between grid points is the two scratch
  arrays at the products the first panel stored; the body's run is one symbolic execution per case (first panel, later
  panel). The seven arguments end unchanged: five are input arrays, never written back, and two bypass the region.

  THE VALUE. At every panel the output block is, index by index, rows 256t … 256t+255 of one function of the arrays the
  region finds (Rgcn.lean, the second arrangement); the panels cover the result. The reference's result is the first
  arrangement of the same arrays. The two agree because every input entry is a real number (the precondition):
  associativity of the matrix product moves a factor across a sum, which needs finiteness on the extended reals, and the
  two halves of a contraction add up to the whole. Both programs end by the same broadcast to [1, 8192, 128].

  `preserves`: the idealization rewrote nothing, so there is nothing to state.
-/
import proofs.«111522_g38826504356516_cont_8to1_b_1379_24_alg».proof.Defs
import proofs.«111522_g38826504356516_cont_8to1_b_1379_24_alg».proof.Proof.Gen.Kernel
import proofs.«111522_g38826504356516_cont_8to1_b_1379_24_alg».proof.Proof.Gen.KernelIdeal
import proofs.«111522_g38826504356516_cont_8to1_b_1379_24_alg».proof.Proof.Gen.ReferenceIdeal
import proofs.«111522_g38826504356516_cont_8to1_b_1379_24_alg».proof.Proof.Gen.Pre_finite_inputs
import proofs.«111522_g38826504356516_cont_8to1_b_1379_24_alg».proof.Proof.Gen.ReferenceIdeal.Run
import proofs.«111522_g38826504356516_cont_8to1_b_1379_24_alg».proof.Proof.Gen.ReferenceIdeal.Read
import proofs.«111522_g38826504356516_cont_8to1_b_1379_24_alg».proof.Proof.BitsLaunch
import proofs.«111522_g38826504356516_cont_8to1_b_1379_24_alg».proof.Proof.Bridge

noncomputable section

namespace Cert.Proof

open Idealize.ShloMosaic Idealize.ShloMosaic.TcCoe Idealize.SL.Sem

/-- The word-level kernel runs to its end and leaves its arguments as they were. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, on real inputs, the two programs end with the same result: the kernel's result array is the
    layer of the arguments in the reference's arrangement, and both broadcast it alike. -/
theorem algebraic : Cert.algebraic_KernelIdeal_ReferenceIdeal := by
  intro m ρ m' ρ' hpre hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq (F := Ideal) _ _ _ _ _ _ _).trans ?_
  obtain ⟨e0, e1, e2, e3, e4, e5, e6⟩ := hagree c
  rw [e0, e1, e2, e3, e4, e5, e6]
  unfold Cert.ReferenceIdeal.Read.val_main_v12
  rw [← Cert.KernelIdeal.Hand.Gk_eq m hpre c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
